-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1000000 : Shape := ⟨1, ![1000000]⟩
abbrev S64x64 : Shape := ⟨2, ![64, 64]⟩
abbrev S64 : Shape := ⟨1, ![64]⟩
abbrev S64x40 : Shape := ⟨2, ![64, 40]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_

variable [Facts]

def fn_part1 {F : FTy → Type} [FloatOps F] (main_arg6 : FVec F S64 .f32) (main_arg7 : FVec F S64x40 .f32) (main_arg8 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x40 .f32 := Host.absf main_arg7
  let main_cst_8 : FVec F S_ .f32 := constant S_ .f32 0x7F800000#32
  let main_v25 : FVec F S64x40 .f32 := broadcastInDim S64x40 ![] bcast_S_S64x40 main_cst_8
  let main_v26 : IVec S64x40 1 := cmpf .olt main_v24 main_v25
  let main_c_9 : IVec S_ 1 := constantI S_ 1 1#1
  let main_v27 : IVec S_ 1 := (fun x v => Host.reduce IntOp.andi x v reducesTo_S64x40_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : IVec S1000000 32) (main_arg2 : IVec S1000000 32) (main_arg3 : FVec F S64x64 .f32) (main_arg4 : FVec F S64 .f32) (main_arg5 : FVec F S64x64 .f32) (main_arg6 : FVec F S64 .f32) (main_arg7 : FVec F S64x40 .f32) (main_arg8 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S100000x64 : Shape := ⟨2, ![100000, 64]⟩
abbrev S1000000 : Shape := ⟨1, ![1000000]⟩
abbrev S64x64 : Shape := ⟨2, ![64, 64]⟩
abbrev S64 : Shape := ⟨1, ![64]⟩
abbrev S64x40 : Shape := ⟨2, ![64, 40]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S1000000x64 : Shape := ⟨2, ![1000000, 64]⟩
abbrev S1x64 : Shape := ⟨2, ![1, 64]⟩
abbrev S10000x64 : Shape := ⟨2, ![10000, 64]⟩
abbrev S10000x1 : Shape := ⟨2, ![10000, 1]⟩
abbrev S40 : Shape := ⟨1, ![40]⟩
abbrev S1x40 : Shape := ⟨2, ![1, 40]⟩
abbrev S100000x40 : Shape := ⟨2, ![100000, 40]⟩
abbrev S10000x40 : Shape := ⟨2, ![10000, 40]⟩

abbrev nBuf : Space → Nat
  | .hbm => 85
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S1000000, .i32⟩
  | .hbm, ⟨2, _⟩ => ⟨S1000000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x40, .f32⟩
  | .hbm, ⟨8, _⟩ => ⟨S64, .f32⟩
  | .hbm, ⟨9, _⟩ => ⟨S_, .f32⟩
  | .hbm, ⟨10, _⟩ => ⟨S1000000, .f32⟩
  | .hbm, ⟨11, _⟩ => ⟨S_, .f32⟩
  | .hbm, ⟨12, _⟩ => ⟨S100000, .f32⟩
  | .hbm, ⟨13, _⟩ => ⟨S1000000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S1000000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x64, .f32⟩
  | .hbm, ⟨29, _⟩ => ⟨S100000x64, .f32⟩
  | .hbm, ⟨30, _⟩ => ⟨S_, .i32⟩
  | .hbm, ⟨31, _⟩ => ⟨S1000000, .i32⟩
  | .hbm, ⟨32, _⟩ => ⟨S1000000, .i1⟩
  | .hbm, ⟨33, _⟩ => ⟨S_, .i32⟩
  | .hbm, ⟨34, _⟩ => ⟨S1000000, .i32⟩
  | .hbm, ⟨35, _⟩ => ⟨S1000000, .i32⟩
  | .hbm, ⟨36, _⟩ => ⟨S1000000, .i32⟩
  | .hbm, ⟨37, _⟩ => ⟨S1000000x1, .i32⟩
  | .hbm, ⟨38, _⟩ => ⟨S1000000x64, .f32⟩
  | .hbm, ⟨39, _⟩ => ⟨S_, .f32⟩
  | .hbm, ⟨40, _⟩ => ⟨S100000x64, .f32⟩
  | .hbm, ⟨41, _⟩ => ⟨S1000000x1, .i32⟩
  | .hbm, ⟨42, _⟩ => ⟨S100000x64, .f32⟩
  | .hbm, ⟨43, _⟩ => ⟨S100000x1, .f32⟩
  | .hbm, ⟨44, _⟩ => ⟨S1x64, .f32⟩
  | .hbm, ⟨45, _⟩ => ⟨S100000x64, .f32⟩
  | .hbm, ⟨46, _⟩ => ⟨S100000x1, .f32⟩
  | .hbm, ⟨47, _⟩ => ⟨S100000x64, .f32⟩
  | .hbm, ⟨48, _⟩ => ⟨S100000x64, .f32⟩
  | .hbm, ⟨49, _⟩ => ⟨S_, .i32⟩
  | .hbm, ⟨50, _⟩ => ⟨S1000000, .i32⟩
  | .hbm, ⟨51, _⟩ => ⟨S1000000, .i1⟩
  | .hbm, ⟨52, _⟩ => ⟨S_, .i32⟩
  | .hbm, ⟨53, _⟩ => ⟨S1000000, .i32⟩
  | .hbm, ⟨54, _⟩ => ⟨S1000000, .i32⟩
  | .hbm, ⟨55, _⟩ => ⟨S1000000, .i32⟩
  | .hbm, ⟨56, _⟩ => ⟨S1000000x1, .i32⟩
  | .hbm, ⟨57, _⟩ => ⟨S1000000x64, .f32⟩
  | .hbm, ⟨58, _⟩ => ⟨S_, .f32⟩
  | .hbm, ⟨59, _⟩ => ⟨S100000x64, .f32⟩
  | .hbm, ⟨60, _⟩ => ⟨S1000000x1, .i32⟩
  | .hbm, ⟨61, _⟩ => ⟨S100000x64, .f32⟩
  | .hbm, ⟨62, _⟩ => ⟨S100000x1, .f32⟩
  | .hbm, ⟨63, _⟩ => ⟨S1x64, .f32⟩
  | .hbm, ⟨64, _⟩ => ⟨S100000x64, .f32⟩
  | .hbm, ⟨65, _⟩ => ⟨S100000x1, .f32⟩
  | .hbm, ⟨66, _⟩ => ⟨S100000x64, .f32⟩
  | .hbm, ⟨67, _⟩ => ⟨S100000x64, .f32⟩
  | .hbm, ⟨68, _⟩ => ⟨S_, .i32⟩
  | .hbm, ⟨69, _⟩ => ⟨S1000000, .i32⟩
  | .hbm, ⟨70, _⟩ => ⟨S1000000, .i1⟩
  | .hbm, ⟨71, _⟩ => ⟨S_, .i32⟩
  | .hbm, ⟨72, _⟩ => ⟨S1000000, .i32⟩
  | .hbm, ⟨73, _⟩ => ⟨S1000000, .i32⟩
  | .hbm, ⟨74, _⟩ => ⟨S1000000, .i32⟩
  | .hbm, ⟨75, _⟩ => ⟨S1000000x1, .i32⟩
  | .hbm, ⟨76, _⟩ => ⟨S1000000x64, .f32⟩
  | .hbm, ⟨77, _⟩ => ⟨S_, .f32⟩
  | .hbm, ⟨78, _⟩ => ⟨S100000x64, .f32⟩
  | .hbm, ⟨79, _⟩ => ⟨S1000000x1, .i32⟩
  | .hbm, ⟨80, _⟩ => ⟨S100000x64, .f32⟩
  | .hbm, ⟨81, _⟩ => ⟨S40, .f32⟩
  | .hbm, ⟨82, _⟩ => ⟨S100000x1, .f32⟩
  | .hbm, ⟨83, _⟩ => ⟨S1x40, .f32⟩
  | .hbm, ⟨84, _⟩ => ⟨S100000x40, .f32⟩
  | .local _ .vmem, ⟨0, _⟩ => ⟨S10000x64, .f32⟩
  | .local _ .vmem, ⟨1, _⟩ => ⟨S10000x64, .f32⟩
  | .local _ .vmem, ⟨2, _⟩ => ⟨S10000x1, .f32⟩
  | .local _ .vmem, ⟨3, _⟩ => ⟨S10000x1, .f32⟩
  | .local _ .vmem, ⟨4, _⟩ => ⟨S64x64, .f32⟩
  | .local _ .vmem, ⟨5, _⟩ => ⟨S1x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x1, .f32⟩
  | .local _ .vmem, ⟨11, _⟩ => ⟨S10000x1, .f32⟩
  | .local _ .vmem, ⟨12, _⟩ => ⟨S64x64, .f32⟩
  | .local _ .vmem, ⟨13, _⟩ => ⟨S1x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x1, .f32⟩
  | .local _ .vmem, ⟨19, _⟩ => ⟨S10000x1, .f32⟩
  | .local _ .vmem, ⟨20, _⟩ => ⟨S64x40, .f32⟩
  | .local _ .vmem, ⟨21, _⟩ => ⟨S1x40, .f32⟩
  | .local _ .vmem, ⟨22, _⟩ => ⟨S10000x40, .f32⟩
  | .local _ .vmem, ⟨23, _⟩ => ⟨S10000x40, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_9 : Ref sig .tc := ⟨.hbm, 68, rfl⟩
abbrev main_v48 : Ref sig .tc := ⟨.hbm, 69, rfl⟩
abbrev main_v49 : Ref sig .tc := ⟨.hbm, 70, rfl⟩
abbrev main_c_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_11 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x40 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x40 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  shapeCasts_S100000_S100000x1 : S100000.ShapeCasts S100000x1
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  slices_S64_S40_0 : S64.Slices ![0] S40
  shapeCasts_S40_S1x40 : S40.ShapeCasts S1x40
  inb_S64x40_S64x40_0_0 : ∀ a, (![0, 0] : Fin 2 → Nat) a + S64x40.size a ≤ S64x40.size a
  h_S64x40 : 0 < S64x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  inb_S10000x40_S10000x40_0_0 : ∀ a, (![0, 0] : Fin 2 → Nat) a + S10000x40.size a ≤ S10000x40.size a
  h_S10000x40 : 0 < S10000x40.numel
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S10000x64_S64x64_S10000x64_1_0_0_1_n_n_wf : DotDims.WF S10000x64 S64x64 S10000x64 [1] [0] [0] [1] [] []
  dot_S10000x64_S64x40_S10000x40_1_0_0_1_n_n_wf : DotDims.WF S10000x64 S64x40 S10000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x64.size a ≤ S100000x64.size a
  hwx0_4 : ∀ i : grid0.Coords, EltTy.bits .f32 = 32 ∨ (Rect.block (s := S100000x64) S10000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S100000x1.size a
  hwx2_1 : ∀ i : grid2.Coords, EltTy.bits .f32 = 32 ∨ (Rect.block (s := S100000x1) S10000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x40.size a ≤ S64x40.size a
  hwx2_2 : ∀ i : grid2.Coords, EltTy.bits .f32 = 32 ∨ (Rect.block (s := S64x40) S64x40.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x40.size a ≤ S1x40.size a
  hwx2_3 : ∀ i : grid2.Coords, EltTy.bits .f32 = 32 ∨ (Rect.block (s := S1x40) S1x40.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x40.size a ≤ S100000x40.size a
  hwx2_4 : ∀ i : grid2.Coords, EltTy.bits .f32 = 32 ∨ (Rect.block (s := S100000x40) S10000x40.size (cc2_transform_4 i) (hinb2_4 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf

abbrev win0_0 : Pipeline.Window sig grid0 :=
  Pipeline.Window.ofSpec (Memref.whole main_v25) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S10000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v41) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v57) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S64x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S1x40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S10000x40.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x64 : Shape := ⟨2, ![100000, 64]⟩
abbrev S1000000 : Shape := ⟨1, ![1000000]⟩
abbrev S64x64 : Shape := ⟨2, ![64, 64]⟩
abbrev S64 : Shape := ⟨1, ![64]⟩
abbrev S64x40 : Shape := ⟨2, ![64, 40]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S1000000x64 : Shape := ⟨2, ![1000000, 64]⟩
abbrev S1x64 : Shape := ⟨2, ![1, 64]⟩
abbrev S100000x40 : Shape := ⟨2, ![100000, 40]⟩
abbrev S40 : Shape := ⟨1, ![40]⟩
abbrev S1x40 : Shape := ⟨2, ![1, 40]⟩

abbrev nBuf : Space → Nat
  | .hbm => 103
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1000000, .i32⟩
  | .hbm, ⟨2, _⟩ => ⟨S1000000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x40, .f32⟩
  | .hbm, ⟨8, _⟩ => ⟨S64, .f32⟩
  | .hbm, ⟨9, _⟩ => ⟨S_, .f32⟩
  | .hbm, ⟨10, _⟩ => ⟨S1000000, .f32⟩
  | .hbm, ⟨11, _⟩ => ⟨S_, .f32⟩
  | .hbm, ⟨12, _⟩ => ⟨S100000, .f32⟩
  | .hbm, ⟨13, _⟩ => ⟨S1000000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S1000000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x64, .f32⟩
  | .hbm, ⟨29, _⟩ => ⟨S100000x64, .f32⟩
  | .hbm, ⟨30, _⟩ => ⟨S_, .i32⟩
  | .hbm, ⟨31, _⟩ => ⟨S1000000, .i32⟩
  | .hbm, ⟨32, _⟩ => ⟨S1000000, .i1⟩
  | .hbm, ⟨33, _⟩ => ⟨S_, .i32⟩
  | .hbm, ⟨34, _⟩ => ⟨S1000000, .i32⟩
  | .hbm, ⟨35, _⟩ => ⟨S1000000, .i32⟩
  | .hbm, ⟨36, _⟩ => ⟨S1000000, .i32⟩
  | .hbm, ⟨37, _⟩ => ⟨S1000000x1, .i32⟩
  | .hbm, ⟨38, _⟩ => ⟨S1000000x64, .f32⟩
  | .hbm, ⟨39, _⟩ => ⟨S_, .f32⟩
  | .hbm, ⟨40, _⟩ => ⟨S100000x64, .f32⟩
  | .hbm, ⟨41, _⟩ => ⟨S1000000x1, .i32⟩
  | .hbm, ⟨42, _⟩ => ⟨S100000x64, .f32⟩
  | .hbm, ⟨43, _⟩ => ⟨S100000x1, .f32⟩
  | .hbm, ⟨44, _⟩ => ⟨S100000x64, .f32⟩
  | .hbm, ⟨45, _⟩ => ⟨S100000x64, .f32⟩
  | .hbm, ⟨46, _⟩ => ⟨S100000x64, .f32⟩
  | .hbm, ⟨47, _⟩ => ⟨S1x64, .f32⟩
  | .hbm, ⟨48, _⟩ => ⟨S100000x64, .f32⟩
  | .hbm, ⟨49, _⟩ => ⟨S100000x64, .f32⟩
  | .hbm, ⟨50, _⟩ => ⟨S_, .f32⟩
  | .hbm, ⟨51, _⟩ => ⟨S100000x64, .f32⟩
  | .hbm, ⟨52, _⟩ => ⟨S100000x64, .f32⟩
  | .hbm, ⟨53, _⟩ => ⟨S100000x1, .f32⟩
  | .hbm, ⟨54, _⟩ => ⟨S100000x64, .f32⟩
  | .hbm, ⟨55, _⟩ => ⟨S100000x64, .f32⟩
  | .hbm, ⟨56, _⟩ => ⟨S_, .i32⟩
  | .hbm, ⟨57, _⟩ => ⟨S1000000, .i32⟩
  | .hbm, ⟨58, _⟩ => ⟨S1000000, .i1⟩
  | .hbm, ⟨59, _⟩ => ⟨S_, .i32⟩
  | .hbm, ⟨60, _⟩ => ⟨S1000000, .i32⟩
  | .hbm, ⟨61, _⟩ => ⟨S1000000, .i32⟩
  | .hbm, ⟨62, _⟩ => ⟨S1000000, .i32⟩
  | .hbm, ⟨63, _⟩ => ⟨S1000000x1, .i32⟩
  | .hbm, ⟨64, _⟩ => ⟨S1000000x64, .f32⟩
  | .hbm, ⟨65, _⟩ => ⟨S_, .f32⟩
  | .hbm, ⟨66, _⟩ => ⟨S100000x64, .f32⟩
  | .hbm, ⟨67, _⟩ => ⟨S1000000x1, .i32⟩
  | .hbm, ⟨68, _⟩ => ⟨S100000x64, .f32⟩
  | .hbm, ⟨69, _⟩ => ⟨S100000x1, .f32⟩
  | .hbm, ⟨70, _⟩ => ⟨S100000x64, .f32⟩
  | .hbm, ⟨71, _⟩ => ⟨S100000x64, .f32⟩
  | .hbm, ⟨72, _⟩ => ⟨S100000x64, .f32⟩
  | .hbm, ⟨73, _⟩ => ⟨S1x64, .f32⟩
  | .hbm, ⟨74, _⟩ => ⟨S100000x64, .f32⟩
  | .hbm, ⟨75, _⟩ => ⟨S100000x64, .f32⟩
  | .hbm, ⟨76, _⟩ => ⟨S_, .f32⟩
  | .hbm, ⟨77, _⟩ => ⟨S100000x64, .f32⟩
  | .hbm, ⟨78, _⟩ => ⟨S100000x64, .f32⟩
  | .hbm, ⟨79, _⟩ => ⟨S100000x1, .f32⟩
  | .hbm, ⟨80, _⟩ => ⟨S100000x64, .f32⟩
  | .hbm, ⟨81, _⟩ => ⟨S100000x64, .f32⟩
  | .hbm, ⟨82, _⟩ => ⟨S_, .i32⟩
  | .hbm, ⟨83, _⟩ => ⟨S1000000, .i32⟩
  | .hbm, ⟨84, _⟩ => ⟨S1000000, .i1⟩
  | .hbm, ⟨85, _⟩ => ⟨S_, .i32⟩
  | .hbm, ⟨86, _⟩ => ⟨S1000000, .i32⟩
  | .hbm, ⟨87, _⟩ => ⟨S1000000, .i32⟩
  | .hbm, ⟨88, _⟩ => ⟨S1000000, .i32⟩
  | .hbm, ⟨89, _⟩ => ⟨S1000000x1, .i32⟩
  | .hbm, ⟨90, _⟩ => ⟨S1000000x64, .f32⟩
  | .hbm, ⟨91, _⟩ => ⟨S_, .f32⟩
  | .hbm, ⟨92, _⟩ => ⟨S100000x64, .f32⟩
  | .hbm, ⟨93, _⟩ => ⟨S1000000x1, .i32⟩
  | .hbm, ⟨94, _⟩ => ⟨S100000x64, .f32⟩
  | .hbm, ⟨95, _⟩ => ⟨S100000x1, .f32⟩
  | .hbm, ⟨96, _⟩ => ⟨S100000x64, .f32⟩
  | .hbm, ⟨97, _⟩ => ⟨S100000x64, .f32⟩
  | .hbm, ⟨98, _⟩ => ⟨S100000x40, .f32⟩
  | .hbm, ⟨99, _⟩ => ⟨S40, .f32⟩
  | .hbm, ⟨100, _⟩ => ⟨S1x40, .f32⟩
  | .hbm, ⟨101, _⟩ => ⟨S100000x40, .f32⟩
  | .hbm, ⟨102, _⟩ => ⟨S100000x40, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call0_cst : Ref sig .tc := ⟨.hbm, 50, rfl⟩
abbrev main_call0_v0 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_6 : Ref sig .tc := ⟨.hbm, 56, rfl⟩
abbrev main_v37 : Ref sig .tc := ⟨.hbm, 57, rfl⟩
abbrev main_v38 : Ref sig .tc := ⟨.hbm, 58, rfl⟩
abbrev main_c_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_call1_cst : Ref sig .tc := ⟨.hbm, 76, rfl⟩
abbrev main_call1_v0 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_9 : Ref sig .tc := ⟨.hbm, 82, rfl⟩
abbrev main_v58 : Ref sig .tc := ⟨.hbm, 83, rfl⟩
abbrev main_v59 : Ref sig .tc := ⟨.hbm, 84, rfl⟩
abbrev main_c_10 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_11 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S64_S40_0 : S64.Slices ![0] S40
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x64_S100000x64_1_0_0_1_n_n_wf : DotDims.WF S100000x64 S64x64 S100000x64 [1] [0] [0] [1] [] []
  dot_S100000x64_S64x40_S100000x40_1_0_0_1_n_n_wf : DotDims.WF S100000x64 S64x40 S100000x40 [1] [0] [0] [1] [] []

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.Spec.lean ====
/-
  The dense step of one graph-convolution layer, as a function of whole arrays over the extended reals.

  A layer takes the aggregated neighbour sums `a` (one row of 64 features per node), the per-node factor `d`
  (a column: one entry per node), a weight matrix `w` and a bias row `b`, and produces, at node `r` and output
  feature `j`,
      Σ_k (a r k · d r) · w k j  +  b j ,
  the hidden layers followed by the floor at zero, `max · 0`. Nothing here mentions a program: both the tiled
  kernel and the whole-array reference are shown elsewhere to compute exactly these functions, so the sum is
  written once, in the order both of them take it (k ascending inside one row), and no law of the extended
  reals beyond reading a sum at an index is ever needed.
-/
import Idealize.ShloMosaic.PureOps.Ideal
import Idealize.ShloMosaic.PureOps.Ideal.Laws
import Idealize.ShloMosaic.Lib.ValueIdx

noncomputable section

namespace Cert.GraphConv

open Idealize.ShloMosaic Idealize.ShloMosaic.ValueIdx

/-- Node features: 100000 nodes, 64 features each. -/
abbrev SNx64 : Shape := ⟨2, ![100000, 64]⟩
/-- One factor per node, as a column. -/
abbrev SNx1 : Shape := ⟨2, ![100000, 1]⟩
/-- Class scores: 100000 nodes, 40 classes. -/
abbrev SNx40 : Shape := ⟨2, ![100000, 40]⟩
abbrev SW64 : Shape := ⟨2, ![64, 64]⟩
abbrev SW40 : Shape := ⟨2, ![64, 40]⟩
abbrev SB64 : Shape := ⟨2, ![1, 64]⟩
abbrev SB40 : Shape := ⟨2, ![1, 40]⟩

/-- The linear part of a hidden layer: `(r, j) ↦ Σ_k (a r k · d r) · w k j + b j`. -/
def lin64 (a : FVec Ideal SNx64 .f32) (d : FVec Ideal SNx1 .f32) (w : FVec Ideal SW64 .f32) (b : FVec Ideal SB64 .f32) :
    FVec Ideal SNx64 .f32 := fun i =>
  (∑ k : Fin 64, (a (ix2 (n0 := 100000) (n1 := 64) (i 0) k) * d (ix2 (n0 := 100000) (n1 := 1) (i 0) 0))
      * w (ix2 (n0 := 64) (n1 := 64) k (i 1)))
    + b (ix2 (n0 := 1) (n1 := 64) 0 (i 1))

/-- A hidden layer: the linear part floored at zero (the zero is the float word `0x00000000`, the same word in
    both programs, so it is never evaluated). -/
def hidden (a : FVec Ideal SNx64 .f32) (d : FVec Ideal SNx1 .f32) (w : FVec Ideal SW64 .f32) (b : FVec Ideal SB64 .f32) :
    FVec Ideal SNx64 .f32 := fun i => max (lin64 a d w b i) (Ideal.ofBits .f32 0x00000000#32)

/-- The output layer: the linear part alone, onto 40 classes. -/
def scores (a : FVec Ideal SNx64 .f32) (d : FVec Ideal SNx1 .f32) (w : FVec Ideal SW40 .f32) (b : FVec Ideal SB40 .f32) :
    FVec Ideal SNx40 .f32 := fun i =>
  (∑ k : Fin 64, (a (ix2 (n0 := 100000) (n1 := 64) (i 0) k) * d (ix2 (n0 := 100000) (n1 := 1) (i 0) 0))
      * w (ix2 (n0 := 64) (n1 := 40) k (i 1)))
    + b (ix2 (n0 := 1) (n1 := 40) 0 (i 1))

end Cert.GraphConv

end
-- ==== Proof.Net.lean ====
/-
  The three-layer graph convolution as ONE function of its argument arrays.

  Both programs apply the same whole-array operations around the dense step of each layer; they are named here
  once and never opened again:
    * `nodeFactor e`: for every node, how often it occurs in the index list `e` (a scatter-add of ones into zeros),
      floored at one, to the power -1/2;
    * `aggregate h ns src dst`: scale row `r` of `h` by `ns r`, take for every edge the row of its source node
      (a negative index counted from the end), and add it into the row of its destination node;
    * `col`, `row64`, `row40`: a vector laid out as a column or as a row; `head40`: its first 40 entries.
  `network` composes them with the dense steps `hidden`, `hidden`, `scores` of the specification: the value both
  programs are shown to end with.
-/
import proofs.«150306_j20220706030037_1_alg».proof.Proof.Gen.KernelIdeal
import proofs.«150306_j20220706030037_1_alg».proof.Proof.Spec
import Idealize.ShloMosaic.PureOps.Ideal

noncomputable section

namespace Cert.GraphConv

open Idealize.ShloMosaic Cert.KernelIdeal Cert.KernelIdeal.Facts₀ Cert.KernelIdeal.Facts

/-- An index list: one 32-bit node index per edge. -/
abbrev Edges : Type := (⟨S1000000, .i32⟩ : BufTy).Contents (Elt Ideal)

/-- `(max (number of occurrences of the node in e) 1)^(-1/2)`, per node. -/
def nodeFactor (e : Edges) : FVec Ideal S100000 .f32 :=
  Host.rsqrt
    (maximumf
      (Host.scatterAdd scatter_S100000_S1000000x1_S1000000_n_0_0_1
        (broadcastInDim S100000 ![] bcast_S_S100000 (constant S_ .f32 0x00000000#32))
        (broadcastInDim S1000000x1 ![0] bcast_S1000000_S1000000x1_0 e)
        (broadcastInDim S1000000 ![] bcast_S_S1000000 (constant S_ .f32 0x3F800000#32)))
      (broadcastInDim S100000 ![] bcast_S_S100000 (constant S_ .f32 0x3F800000#32)))

/-- Neighbour aggregation: `dst`-row `r` of the result is the sum, over the edges into `r`, of the source node's
    row of `h` scaled by the source node's factor. -/
def aggregate (h : FVec Ideal S100000x64 .f32) (ns : FVec Ideal S100000 .f32) (src dst : Edges) : FVec Ideal S100000x64 .f32 :=
  Host.scatterAdd scatter_S100000x64_S1000000x1_S1000000x64_1_0_0_1
    (broadcastInDim S100000x64 ![] bcast_S_S100000x64 (constant S_ .f32 0x00000000#32))
    (broadcastInDim S1000000x1 ![0] bcast_S1000000_S1000000x1_0 dst)
    (Host.gather gather_S100000x64_S1000000x1_S1000000x64_1_0_n_n_0_1_164
      (mulf h (broadcastInDim S100000x64 ![0, 1] bcast_S100000x1_S100000x64_0_1
        (broadcastInDim S100000x1 ![0] bcast_S100000_S100000x1_0 ns)))
      (broadcastInDim S1000000x1 ![0] bcast_S1000000_S1000000x1_0
        (select (cmpi .slt src (broadcastInDim S1000000 ![] bcast_S_S1000000 (constantI S_ 32 0#32)))
          (addi src (broadcastInDim S1000000 ![] bcast_S_S1000000 (constantI S_ 32 100000#32))) src)))

/-- A vector with one entry per node, as a column. -/
def col (x : FVec Ideal S100000 .f32) : FVec Ideal S100000x1 .f32 := shapeCast S100000x1 x shapeCasts_S100000_S100000x1
/-- A bias vector as a row. -/
def row64 (y : FVec Ideal S64 .f32) : FVec Ideal S1x64 .f32 := shapeCast S1x64 y shapeCasts_S64_S1x64
def row40 (y : FVec Ideal S40 .f32) : FVec Ideal S1x40 .f32 := shapeCast S1x40 y shapeCasts_S40_S1x40
/-- The first 40 entries of a 64-vector. -/
def head40 (y : FVec Ideal S64 .f32) : FVec Ideal S40 .f32 := extractStridedSlice S40 ![0] y slices_S64_S40_0

/-- The network: three rounds of aggregation and dense step, the last without the floor and onto 40 classes. -/
def network (x : FVec Ideal S100000x64 .f32) (src dst : Edges)
    (w1 : FVec Ideal S64x64 .f32) (b1 : FVec Ideal S64 .f32) (w2 : FVec Ideal S64x64 .f32) (b2 : FVec Ideal S64 .f32)
    (w3 : FVec Ideal S64x40 .f32) (b3 : FVec Ideal S64 .f32) : FVec Ideal S100000x40 .f32 :=
  scores
    (aggregate
      (hidden
        (aggregate (hidden (aggregate x (nodeFactor src) src dst) (col (nodeFactor dst)) w1 (row64 b1)) (nodeFactor src) src dst)
        (col (nodeFactor dst)) w2 (row64 b2))
      (nodeFactor src) src dst)
    (col (nodeFactor dst)) w3 (row40 (head40 b3))

end Cert.GraphConv

end
-- ==== Proof.Boundaries.lean ====
/-
  What each stretch of whole-array operations hands to the region after it.

  The run's boundaries are `W1` (after the first stretch), `W2` (after region 0), `W3`, `W4`, `W5`, `W6`. A stretch is
  a list of whole-array operations, each writing one fresh buffer; reading a buffer after the stretch gives the
  operations' composed term of the buffers the stretch was entered with. Read here, for each region, are the four
  arrays it stages — the aggregated features, the destination factor as a column, the weights, the bias as a row —
  and, for the values computed once and used by every layer (the two node factors and the argument arrays), that
  no later stretch and no region overwrites them.
-/
import proofs.«150306_j20220706030037_1_alg».proof.Proof.Gen.KernelIdeal.Frame
import proofs.«150306_j20220706030037_1_alg».proof.Proof.Net

set_option maxRecDepth 16384

noncomputable section

namespace Cert.KernelIdeal.Boundaries

open Idealize.ShloMosaic Idealize.ShloMosaic.TcCoe Idealize.SL.Sem Idealize.ShloMosaic.StableHlo
open Cert.KernelIdeal Cert.KernelIdeal.Gen Cert.GraphConv

variable (m : (ℓ : Loc nD τ sig) → Buf (Elt Ideal) ℓ) (ρ : Dev nD → PrngReg)

/-! ## The first stretch, from the launch memory -/

set_option maxHeartbeats 4000000 in
/-- Region 0 aggregates the input features. -/
theorem agg_at1 (c : Dev nD) :
    V1 m ρ c main_v25 = aggregate (m ((c : Thread nD τ).loc main_arg0)) (nodeFactor (m ((c : Thread nD τ).loc main_arg1))) (m ((c : Thread nD τ).loc main_arg1)) (m ((c : Thread nD τ).loc main_arg2)) := by
  show StableHlo.after hostOps0 (W0 m ρ c) (Proc.devRef .tc main_v25) = _
  after_results_simp <;> rfl

set_option maxHeartbeats 4000000 in
theorem col_at1 (c : Dev nD) : V1 m ρ c main_v26 = col (nodeFactor (m ((c : Thread nD τ).loc main_arg2))) := by
  show StableHlo.after hostOps0 (W0 m ρ c) (Proc.devRef .tc main_v26) = _
  after_results_simp <;> rfl

set_option maxHeartbeats 4000000 in
theorem w_at1 (c : Dev nD) : V1 m ρ c main_arg3 = (m ((c : Thread nD τ).loc main_arg3)) := by
  show StableHlo.after hostOps0 (W0 m ρ c) (Proc.devRef .tc main_arg3) = _
  after_results_simp <;> rfl

set_option maxHeartbeats 4000000 in
theorem row_at1 (c : Dev nD) : V1 m ρ c main_v27 = row64 (m ((c : Thread nD τ).loc main_arg4)) := by
  show StableHlo.after hostOps0 (W0 m ρ c) (Proc.devRef .tc main_v27) = _
  after_results_simp <;> rfl

set_option maxHeartbeats 4000000 in
/-- The source factor, computed once. -/
theorem ns_at1 (c : Dev nD) : W1 m ρ c (Proc.devRef .tc main_v9) = nodeFactor (m ((c : Thread nD τ).loc main_arg1)) := by
  show StableHlo.after hostOps0 (W0 m ρ c) (Proc.devRef .tc main_v9) = _
  after_results_simp <;> rfl

set_option maxHeartbeats 4000000 in
/-- The destination factor, computed once. -/
theorem nd_at1 (c : Dev nD) : W1 m ρ c (Proc.devRef .tc main_v12) = nodeFactor (m ((c : Thread nD τ).loc main_arg2)) := by
  show StableHlo.after hostOps0 (W0 m ρ c) (Proc.devRef .tc main_v12) = _
  after_results_simp <;> rfl

set_option maxHeartbeats 4000000 in
theorem arg1_at1 (c : Dev nD) : W1 m ρ c (Proc.devRef .tc main_arg1) = (m ((c : Thread nD τ).loc main_arg1)) := by
  show StableHlo.after hostOps0 (W0 m ρ c) (Proc.devRef .tc main_arg1) = _
  after_results_simp <;> rfl

set_option maxHeartbeats 4000000 in
theorem arg2_at1 (c : Dev nD) : W1 m ρ c (Proc.devRef .tc main_arg2) = (m ((c : Thread nD τ).loc main_arg2)) := by
  show StableHlo.after hostOps0 (W0 m ρ c) (Proc.devRef .tc main_arg2) = _
  after_results_simp <;> rfl

set_option maxHeartbeats 4000000 in
theorem arg5_at1 (c : Dev nD) : W1 m ρ c (Proc.devRef .tc main_arg5) = (m ((c : Thread nD τ).loc main_arg5)) := by
  show StableHlo.after hostOps0 (W0 m ρ c) (Proc.devRef .tc main_arg5) = _
  after_results_simp <;> rfl

set_option maxHeartbeats 4000000 in
theorem arg6_at1 (c : Dev nD) : W1 m ρ c (Proc.devRef .tc main_arg6) = (m ((c : Thread nD τ).loc main_arg6)) := by
  show StableHlo.after hostOps0 (W0 m ρ c) (Proc.devRef .tc main_arg6) = _
  after_results_simp <;> rfl

set_option maxHeartbeats 4000000 in
theorem arg7_at1 (c : Dev nD) : W1 m ρ c (Proc.devRef .tc main_arg7) = (m ((c : Thread nD τ).loc main_arg7)) := by
  show StableHlo.after hostOps0 (W0 m ρ c) (Proc.devRef .tc main_arg7) = _
  after_results_simp <;> rfl

set_option maxHeartbeats 4000000 in
theorem arg8_at1 (c : Dev nD) : W1 m ρ c (Proc.devRef .tc main_arg8) = (m ((c : Thread nD τ).loc main_arg8)) := by
  show StableHlo.after hostOps0 (W0 m ρ c) (Proc.devRef .tc main_arg8) = _
  after_results_simp <;> rfl

/-! ## Region 0 writes only its own five arrays -/

theorem ns_at2 (c : Dev nD) : W2 m ρ c (Proc.devRef .tc main_v9) = nodeFactor (m ((c : Thread nD τ).loc main_arg1)) :=
  (W2_of_ne m ρ c main_v9 (by decide)).trans (ns_at1 m ρ c)
theorem nd_at2 (c : Dev nD) : W2 m ρ c (Proc.devRef .tc main_v12) = nodeFactor (m ((c : Thread nD τ).loc main_arg2)) :=
  (W2_of_ne m ρ c main_v12 (by decide)).trans (nd_at1 m ρ c)
theorem arg1_at2 (c : Dev nD) : W2 m ρ c (Proc.devRef .tc main_arg1) = (m ((c : Thread nD τ).loc main_arg1)) :=
  (W2_of_ne m ρ c main_arg1 (by decide)).trans (arg1_at1 m ρ c)
theorem arg2_at2 (c : Dev nD) : W2 m ρ c (Proc.devRef .tc main_arg2) = (m ((c : Thread nD τ).loc main_arg2)) :=
  (W2_of_ne m ρ c main_arg2 (by decide)).trans (arg2_at1 m ρ c)
theorem arg5_at2 (c : Dev nD) : W2 m ρ c (Proc.devRef .tc main_arg5) = (m ((c : Thread nD τ).loc main_arg5)) :=
  (W2_of_ne m ρ c main_arg5 (by decide)).trans (arg5_at1 m ρ c)
theorem arg6_at2 (c : Dev nD) : W2 m ρ c (Proc.devRef .tc main_arg6) = (m ((c : Thread nD τ).loc main_arg6)) :=
  (W2_of_ne m ρ c main_arg6 (by decide)).trans (arg6_at1 m ρ c)
theorem arg7_at2 (c : Dev nD) : W2 m ρ c (Proc.devRef .tc main_arg7) = (m ((c : Thread nD τ).loc main_arg7)) :=
  (W2_of_ne m ρ c main_arg7 (by decide)).trans (arg7_at1 m ρ c)
theorem arg8_at2 (c : Dev nD) : W2 m ρ c (Proc.devRef .tc main_arg8) = (m ((c : Thread nD τ).loc main_arg8)) :=
  (W2_of_ne m ρ c main_arg8 (by decide)).trans (arg8_at1 m ρ c)

/-! ## The second stretch, from region 0's exit -/

/-- Region 1 aggregates region 0's output. -/
theorem agg_at3 (c : Dev nD) :
    V3 m ρ c main_v41 = aggregate (W2 m ρ c (Proc.devRef .tc main_v28)) (nodeFactor (m ((c : Thread nD τ).loc main_arg1))) (m ((c : Thread nD τ).loc main_arg1)) (m ((c : Thread nD τ).loc main_arg2)) := by
  rw [← ns_at2 m ρ c, ← arg1_at2 m ρ c, ← arg2_at2 m ρ c]
  show StableHlo.after hostOps1 (W2 m ρ c) (Proc.devRef .tc main_v41) = _
  generalize W2 m ρ c = W
  after_results_simp <;> rfl

theorem col_at3 (c : Dev nD) : V3 m ρ c main_v42 = col (nodeFactor (m ((c : Thread nD τ).loc main_arg2))) := by
  rw [← nd_at2 m ρ c]
  show StableHlo.after hostOps1 (W2 m ρ c) (Proc.devRef .tc main_v42) = _
  generalize W2 m ρ c = W
  after_results_simp <;> rfl

theorem w_at3 (c : Dev nD) : V3 m ρ c main_arg5 = (m ((c : Thread nD τ).loc main_arg5)) := by
  rw [← arg5_at2 m ρ c]
  show StableHlo.after hostOps1 (W2 m ρ c) (Proc.devRef .tc main_arg5) = _
  generalize W2 m ρ c = W
  after_results_simp

theorem row_at3 (c : Dev nD) : V3 m ρ c main_v43 = row64 (m ((c : Thread nD τ).loc main_arg6)) := by
  rw [← arg6_at2 m ρ c]
  show StableHlo.after hostOps1 (W2 m ρ c) (Proc.devRef .tc main_v43) = _
  generalize W2 m ρ c = W
  after_results_simp <;> rfl

theorem ns_at3 (c : Dev nD) : W3 m ρ c (Proc.devRef .tc main_v9) = nodeFactor (m ((c : Thread nD τ).loc main_arg1)) := by
  rw [← ns_at2 m ρ c]
  show StableHlo.after hostOps1 (W2 m ρ c) (Proc.devRef .tc main_v9) = _
  generalize W2 m ρ c = W
  after_results_simp
theorem ns_at4 (c : Dev nD) : W4 m ρ c (Proc.devRef .tc main_v9) = nodeFactor (m ((c : Thread nD τ).loc main_arg1)) :=
  (W4_of_ne m ρ c main_v9 (by decide)).trans (ns_at3 m ρ c)
theorem nd_at3 (c : Dev nD) : W3 m ρ c (Proc.devRef .tc main_v12) = nodeFactor (m ((c : Thread nD τ).loc main_arg2)) := by
  rw [← nd_at2 m ρ c]
  show StableHlo.after hostOps1 (W2 m ρ c) (Proc.devRef .tc main_v12) = _
  generalize W2 m ρ c = W
  after_results_simp
theorem nd_at4 (c : Dev nD) : W4 m ρ c (Proc.devRef .tc main_v12) = nodeFactor (m ((c : Thread nD τ).loc main_arg2)) :=
  (W4_of_ne m ρ c main_v12 (by decide)).trans (nd_at3 m ρ c)
theorem arg1_at3 (c : Dev nD) : W3 m ρ c (Proc.devRef .tc main_arg1) = (m ((c : Thread nD τ).loc main_arg1)) := by
  rw [← arg1_at2 m ρ c]
  show StableHlo.after hostOps1 (W2 m ρ c) (Proc.devRef .tc main_arg1) = _
  generalize W2 m ρ c = W
  after_results_simp
theorem arg1_at4 (c : Dev nD) : W4 m ρ c (Proc.devRef .tc main_arg1) = (m ((c : Thread nD τ).loc main_arg1)) :=
  (W4_of_ne m ρ c main_arg1 (by decide)).trans (arg1_at3 m ρ c)
theorem arg2_at3 (c : Dev nD) : W3 m ρ c (Proc.devRef .tc main_arg2) = (m ((c : Thread nD τ).loc main_arg2)) := by
  rw [← arg2_at2 m ρ c]
  show StableHlo.after hostOps1 (W2 m ρ c) (Proc.devRef .tc main_arg2) = _
  generalize W2 m ρ c = W
  after_results_simp
theorem arg2_at4 (c : Dev nD) : W4 m ρ c (Proc.devRef .tc main_arg2) = (m ((c : Thread nD τ).loc main_arg2)) :=
  (W4_of_ne m ρ c main_arg2 (by decide)).trans (arg2_at3 m ρ c)
theorem arg7_at3 (c : Dev nD) : W3 m ρ c (Proc.devRef .tc main_arg7) = (m ((c : Thread nD τ).loc main_arg7)) := by
  rw [← arg7_at2 m ρ c]
  show StableHlo.after hostOps1 (W2 m ρ c) (Proc.devRef .tc main_arg7) = _
  generalize W2 m ρ c = W
  after_results_simp
theorem arg7_at4 (c : Dev nD) : W4 m ρ c (Proc.devRef .tc main_arg7) = (m ((c : Thread nD τ).loc main_arg7)) :=
  (W4_of_ne m ρ c main_arg7 (by decide)).trans (arg7_at3 m ρ c)
theorem arg8_at3 (c : Dev nD) : W3 m ρ c (Proc.devRef .tc main_arg8) = (m ((c : Thread nD τ).loc main_arg8)) := by
  rw [← arg8_at2 m ρ c]
  show StableHlo.after hostOps1 (W2 m ρ c) (Proc.devRef .tc main_arg8) = _
  generalize W2 m ρ c = W
  after_results_simp
theorem arg8_at4 (c : Dev nD) : W4 m ρ c (Proc.devRef .tc main_arg8) = (m ((c : Thread nD τ).loc main_arg8)) :=
  (W4_of_ne m ρ c main_arg8 (by decide)).trans (arg8_at3 m ρ c)

/-! ## The third stretch, from region 1's exit -/

/-- Region 2 aggregates region 1's output. -/
theorem agg_at5 (c : Dev nD) :
    V5 m ρ c main_v57 = aggregate (W4 m ρ c (Proc.devRef .tc main_v44)) (nodeFactor (m ((c : Thread nD τ).loc main_arg1))) (m ((c : Thread nD τ).loc main_arg1)) (m ((c : Thread nD τ).loc main_arg2)) := by
  rw [← ns_at4 m ρ c, ← arg1_at4 m ρ c, ← arg2_at4 m ρ c]
  show StableHlo.after hostOps2 (W4 m ρ c) (Proc.devRef .tc main_v57) = _
  generalize W4 m ρ c = W
  after_results_simp <;> rfl

theorem col_at5 (c : Dev nD) : V5 m ρ c main_v59 = col (nodeFactor (m ((c : Thread nD τ).loc main_arg2))) := by
  rw [← nd_at4 m ρ c]
  show StableHlo.after hostOps2 (W4 m ρ c) (Proc.devRef .tc main_v59) = _
  generalize W4 m ρ c = W
  after_results_simp <;> rfl

theorem w_at5 (c : Dev nD) : V5 m ρ c main_arg7 = (m ((c : Thread nD τ).loc main_arg7)) := by
  rw [← arg7_at4 m ρ c]
  show StableHlo.after hostOps2 (W4 m ρ c) (Proc.devRef .tc main_arg7) = _
  generalize W4 m ρ c = W
  after_results_simp

/-- The last layer's bias row: the first 40 entries of the bias vector. -/
theorem row_at5 (c : Dev nD) : V5 m ρ c main_v60 = row40 (head40 (m ((c : Thread nD τ).loc main_arg8))) := by
  rw [← arg8_at4 m ρ c]
  show StableHlo.after hostOps2 (W4 m ρ c) (Proc.devRef .tc main_v60) = _
  generalize W4 m ρ c = W
  after_results_simp <;> rfl

end Cert.KernelIdeal.Boundaries

end
-- ==== Proof.Region0.lean ====
/-
  The first hidden layer's dense step, tile by tile, is the specification's `hidden` of the arrays it is entered with.

  The kernel works on ten tiles of 10000 nodes. On a tile it multiplies each aggregated feature row by the node's
  factor, takes the product with the weight matrix, adds the bias row and floors the result at zero. Read on the extended reals
  the narrowing before the product changes nothing and the product is the plain sum over the 64 input features, so the
  tile's entry at (row p, feature q) is the layer's function at node 10000·t + p. The tiles of the features, the
  factors and the result move together, the weights and the bias are read whole, every tile is written back, and node r
  lies in tile r / 10000: hence the whole result array is the layer's function of the arrays the region starts from.
-/
import proofs.«150306_j20220706030037_1_alg».proof.Proof.Gen.KernelIdeal.Frame
import proofs.«150306_j20220706030037_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section
namespace Cert.KernelIdeal.RegionValue
open Idealize.ShloMosaic Idealize.ShloMosaic.TcCoe Idealize.SL.Sem Cert.KernelIdeal Cert.KernelIdeal.Gen
open Idealize.ShloMosaic.ValueIdx

/-- A column `[a, 1]` broadcast along its unit axis to `[a, b]` reads, at `(p, c)`, the column's entry of row `p`. -/
theorem broadcastTo_column0_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The contraction of the layer's product: rows of 64 features against the 64 × 64 weights. -/
abbrev contraction0 := dot_S10000x64_S64x64_S10000x64_1_0_0_1_n_n

/-- One tile's result at row `p`, feature `q`: the normalised row times column `q` of the weights, plus the bias,
    floored at zero. The rounding to the narrow format before the product is the identity on the extended reals, the
    product into the zero accumulator is the plain sum over the 64 features. -/
theorem payload0_apply (x0 : Vec Ideal S10000x64 .f32) (x1 : Vec Ideal S10000x1 .f32) (x2 : Vec Ideal S64x64 .f32)
    (x3 : Vec Ideal S1x64 .f32) (p : Fin 10000) (q : Fin 64) :
    k0_pay1 x0 x1 x2 x3 (ix2 p q)
      = max ((∑ k : Fin 64, (x0 (ix2 p k) * x1 (ix2 p 0)) * x2 (ix2 k q)) + x3 (ix2 0 q)) (Ideal.ofBits .f32 0x00000000#32) := by
  unfold k0_pay1
  simp only [shapeCast_self]
  rw [maximumf_apply, addf_apply, broadcast_apply, broadcastTo_1b_ab_apply]
  simp only [matmul]
  rw [Ideal.matmul_constant_zero_apply, ← Equiv.sum_comp (contrEquiv1 contraction0 64 rfl rfl).symm]
  show max ((∑ k : Fin 64, _) + _) _ = _
  congr 2
  refine Finset.sum_congr rfl fun k _ => ?_
  have hk := contrEquiv1_symm_val contraction0 64 rfl rfl k
  have el : contraction0.lhsIdx (ix2 p q) ((contrEquiv1 contraction0 64 rfl rfl).symm k) = ix2 p k := funext fun a => Fin.ext (by
    match a with
    | ⟨0, _⟩ => rfl
    | ⟨1, _⟩ => exact (contraction0.lhsIdx_val_of_single rfl (ix2 p q) _).trans hk)
  have er : contraction0.rhsIdx (ix2 p q) ((contrEquiv1 contraction0 64 rfl rfl).symm k) = ix2 k q := funext fun a => Fin.ext (by
    match a with
    | ⟨0, _⟩ => exact (contraction0.rhsIdx_val_of_single rfl (ix2 p q) _).trans hk
    | ⟨1, _⟩ => rfl)
  rw [el, er, truncf_apply, truncf_apply, mulf_apply, broadcastTo_column0_apply]

/-- A tile's result is the layer's function at the node the tile's row stands for, once each operand the tile reads is
    the matching entry of the whole arrays. -/
theorem payload0_eq_hidden (A : FVec Ideal Cert.GraphConv.SNx64 .f32) (D : FVec Ideal Cert.GraphConv.SNx1 .f32)
    (W : FVec Ideal Cert.GraphConv.SW64 .f32) (B : FVec Ideal Cert.GraphConv.SB64 .f32)
    (x0 : Vec Ideal S10000x64 .f32) (x1 : Vec Ideal S10000x1 .f32) (x2 : Vec Ideal S64x64 .f32) (x3 : Vec Ideal S1x64 .f32)
    (p : Fin 10000) (q : Fin 64) (i : Cert.GraphConv.SNx64.Idx)
    (h0 : ∀ k : Fin 64, x0 (ix2 p k) = A (ix2 (n0 := 100000) (n1 := 64) (i 0) k))
    (h1 : x1 (ix2 p 0) = D (ix2 (n0 := 100000) (n1 := 1) (i 0) 0))
    (h2 : ∀ k : Fin 64, x2 (ix2 k q) = W (ix2 (n0 := 64) (n1 := 64) k (i 1)))
    (h3 : x3 (ix2 0 q) = B (ix2 (n0 := 1) (n1 := 64) 0 (i 1))) :
    k0_pay1 x0 x1 x2 x3 (ix2 p q) = Cert.GraphConv.hidden A D W B i := by
  rw [payload0_apply]
  unfold Cert.GraphConv.hidden Cert.GraphConv.lin64
  simp only [h0, h1, h2, h3]

variable (V : (c : Dev nD) → (b : Ref sig .tc) → Buf (Elt Ideal) ((c : Thread nD τ).loc b))

theorem zero_offsets0 : (![0, 0] : Fin 2 → Nat) = fun _ => 0 := funext fun a => by fin_cases a <;> rfl

/-- Where the ten tiles sit: tile `t` of the features, of the per-node factors and of the result is the `t`-th run of
    10000 rows; the weights and the bias are read whole at every tile. -/
theorem tile_indices0 : ∀ t : Fin cfg0.N,
    win0_4.index t (0 : Fin 2) = t.val ∧ win0_4.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- Tile `t` of the aggregated features holds rows `10000 t … 10000 t + 9999`. -/
theorem features_tile0 (c : Dev nD) (t : Fin cfg0.N) (x : S10000x64.Idx) (i : S100000x64.Idx)
    (h0 : (i 0).val = t.val * 10000 + (x 0).val) (h1 : (i 1).val = (x 1).val) :
    (iblk0 V c 0 t : Vec Ideal S10000x64 .f32) x = (V c main_v25 : S100000x64.Idx → Elt Ideal .f32) i := by
  obtain ⟨-, -, e0, e1, -⟩ := tile_indices0 t
  unfold iblk0
  rw [View.read_apply]
  show V c main_v25 _ = V c main_v25 _
  congr 1
  funext a
  apply Fin.ext
  match a with
  | ⟨0, _⟩ => show win0_0.index t (0 : Fin 2) * 10000 + 1 * (x 0).val = (i 0).val; omega
  | ⟨1, _⟩ => show win0_0.index t (1 : Fin 2) * 64 + 1 * (x 1).val = (i 1).val; omega

/-- Tile `t` of the per-node factors holds the same rows of the column. -/
theorem factors_tile0 (c : Dev nD) (t : Fin cfg0.N) (x : S10000x1.Idx) (i : S100000x1.Idx)
    (h0 : (i 0).val = t.val * 10000 + (x 0).val) (h1 : (i 1).val = (x 1).val) :
    (iblk0 V c 1 t : Vec Ideal S10000x1 .f32) x = (V c main_v26 : S100000x1.Idx → Elt Ideal .f32) i := by
  obtain ⟨-, -, -, -, e0, e1, -⟩ := tile_indices0 t
  unfold iblk0
  rw [View.read_apply]
  show V c main_v26 _ = V c main_v26 _
  congr 1
  funext a
  apply Fin.ext
  match a with
  | ⟨0, _⟩ => show win0_1.index t (0 : Fin 2) * 10000 + 1 * (x 0).val = (i 0).val; omega
  | ⟨1, _⟩ => show win0_1.index t (1 : Fin 2) * 1 + 1 * (x 1).val = (i 1).val; omega

/-- Every tile reads the whole weight matrix. -/
theorem weights_tile0 (c : Dev nD) (t : Fin cfg0.N) (x : S64x64.Idx) :
    (iblk0 V c 2 t : Vec Ideal S64x64 .f32) x = (V c main_arg3 : S64x64.Idx → Elt Ideal .f32) x := by
  obtain ⟨-, -, -, -, -, -, e0, e1, -⟩ := tile_indices0 t
  unfold iblk0
  rw [View.read_apply]
  show V c main_arg3 _ = V c main_arg3 _
  congr 1
  funext a
  apply Fin.ext
  match a with
  | ⟨0, _⟩ => show win0_2.index t (0 : Fin 2) * 64 + 1 * (x 0).val = (x 0).val; omega
  | ⟨1, _⟩ => show win0_2.index t (1 : Fin 2) * 64 + 1 * (x 1).val = (x 1).val; omega

/-- Every tile reads the whole bias row. -/
theorem bias_tile0 (c : Dev nD) (t : Fin cfg0.N) (x : S1x64.Idx) :
    (iblk0 V c 3 t : Vec Ideal S1x64 .f32) x = (V c main_v27 : S1x64.Idx → Elt Ideal .f32) x := by
  obtain ⟨-, -, -, -, -, -, -, -, e0, e1⟩ := tile_indices0 t
  unfold iblk0
  rw [View.read_apply]
  show V c main_v27 _ = V c main_v27 _
  congr 1
  funext a
  apply Fin.ext
  match a with
  | ⟨0, _⟩ => show win0_3.index t (0 : Fin 2) * 1 + 1 * (x 0).val = (x 0).val; omega
  | ⟨1, _⟩ => show win0_3.index t (1 : Fin 2) * 64 + 1 * (x 1).val = (x 1).val; omega

/-- What tile `t` writes back is tile `t` of the layer's function of the arrays the region was entered with. -/
theorem flushed0_eq (c : Dev nD) (t : Fin cfg0.N) :
    (dat0 (F := Ideal) V c).flushed 4 t = ((cfg0.win 4).blk t).view.read (Elt Ideal)
      (Cert.GraphConv.hidden (V c main_v25) (V c main_v26) (V c main_arg3) (V c main_v27)) := by
  show (cfg0.win 4).cut (grid0.coords t) ((dat0 V c).after 4 t) = _
  rw [after0_4]
  unfold out0_4
  rw [View.canon_unit_zero zero_offsets0]
  simp only [View.ld_unit_zero (S := S10000x64) zero_offsets0, View.ld_unit_zero (S := S10000x1) zero_offsets0,
    View.ld_unit_zero (S := S64x64) zero_offsets0, View.ld_unit_zero (S := S1x64) zero_offsets0]
  obtain ⟨e0, e1, -⟩ := tile_indices0 t
  refine funext fun (j : S10000x64.Idx) => ?_
  show k0_pay1 (iblk0 V c 0 t) (iblk0 V c 1 t) (iblk0 V c 2 t) (iblk0 V c 3 t) j
    = Cert.GraphConv.hidden (V c main_v25) (V c main_v26) (V c main_arg3) (V c main_v27) (((cfg0.win 4).blk t).view.emb j)
  obtain ⟨p, q, rfl⟩ : ∃ (p : Fin 10000) (q : Fin 64), j = ix2 p q := ⟨j 0, j 1, eq_ix2 j⟩
  have hr : (((cfg0.win 4).blk t).view.emb (ix2 p q) 0).val = t.val * 10000 + p.val := by
    show win0_4.index t (0 : Fin 2) * 10000 + 1 * p.val = _; omega
  have hc : (((cfg0.win 4).blk t).view.emb (ix2 p q) 1).val = q.val := by
    show win0_4.index t (1 : Fin 2) * 64 + 1 * q.val = _; omega
  refine payload0_eq_hidden _ _ _ _ (iblk0 V c 0 t) (iblk0 V c 1 t) (iblk0 V c 2 t) (iblk0 V c 3 t) p q _ ?_ ?_ ?_ ?_
  · intro k
    exact features_tile0 V c t (ix2 p k) _ hr rfl
  · exact factors_tile0 V c t (ix2 p 0) _ hr rfl
  · intro k
    refine (weights_tile0 V c t (ix2 k q)).trans (congrArg _ (funext fun a => Fin.ext ?_))
    match a with
    | ⟨0, _⟩ => rfl
    | ⟨1, _⟩ => exact hc.symm
  · refine (bias_tile0 V c t (ix2 0 q)).trans (congrArg _ (funext fun a => Fin.ext ?_))
    match a with
    | ⟨0, _⟩ => rfl
    | ⟨1, _⟩ => exact hc.symm

/-- A node's row lies in a tile exactly when it lies in the tile's run of rows. -/
theorem mem_tile0 (t : Fin cfg0.N) (i : S100000x64.Idx) :
    i ∈ ((cfg0.win 4).blk t).view.set ↔ ∀ a : Fin 2, win0_4.index t a * S10000x64.size a ≤ (i a).val
      ∧ (i a).val < win0_4.index t a * S10000x64.size a + S10000x64.size a := by
  show i ∈ ((View.whole main_v28).slice (win0_4.rect t)).set ↔ _
  rw [View.set_slice_whole, Rect.mem_set_unit]
  exact Iff.rfl

/-- After the ten tiles the result array holds the hidden layer of the arrays the region was entered with: node `r` is
    written by tile `r / 10000`, and every tile is written back. -/
theorem region0 (c : Dev nD) :
    (dat0 (F := Ideal) V c).arrAt 4 cfg0.N
      = Cert.GraphConv.hidden (V c main_v25) (V c main_v26) (V c main_arg3) (V c main_v27) :=
  (dat0 V c).arrAt_eq_of_cover 4 (Cert.GraphConv.hidden (V c main_v25) (V c main_v26) (V c main_arg3) (V c main_v27))
    (fun t _ => flushed0_eq V c t) fun i => by
      have hi0 : (i 0).val < 100000 := (i 0).isLt
      have hi1 : (i 1).val < 64 := (i 1).isLt
      obtain ⟨t, ht⟩ : ∃ t : Fin cfg0.N, t.val = (i 0).val / 10000 :=
        ⟨⟨(i 0).val / 10000, by rw [show cfg0.N = 10 from N_0]; omega⟩, rfl⟩
      obtain ⟨e0, e1, -⟩ := tile_indices0 t
      refine ⟨t, flush0_4 t, ?_⟩
      rw [mem_tile0]
      intro a
      match a with
      | ⟨0, _⟩ =>
        show win0_4.index t (0 : Fin 2) * 10000 ≤ (i 0).val ∧ (i 0).val < win0_4.index t (0 : Fin 2) * 10000 + 10000
        omega
      | ⟨1, _⟩ =>
        show win0_4.index t (1 : Fin 2) * 64 ≤ (i 1).val ∧ (i 1).val < win0_4.index t (1 : Fin 2) * 64 + 64
        omega

end Cert.KernelIdeal.RegionValue
end
-- ==== Proof.Region1.lean ====
/-
  The second hidden layer's dense step, tile by tile, is the specification's `hidden` of the arrays it is entered with.

  The kernel works on ten tiles of 10000 nodes. On a tile it multiplies each aggregated feature row by the node's
  factor, takes the product with the weight matrix, adds the bias row and floors the result at zero. Read on the extended reals
  the narrowing before the product changes nothing and the product is the plain sum over the 64 input features, so the
  tile's entry at (row p, feature q) is the layer's function at node 10000·t + p. The tiles of the features, the
  factors and the result move together, the weights and the bias are read whole, every tile is written back, and node r
  lies in tile r / 10000: hence the whole result array is the layer's function of the arrays the region starts from.
-/
import proofs.«150306_j20220706030037_1_alg».proof.Proof.Gen.KernelIdeal.Frame
import proofs.«150306_j20220706030037_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section
namespace Cert.KernelIdeal.RegionValue
open Idealize.ShloMosaic Idealize.ShloMosaic.TcCoe Idealize.SL.Sem Cert.KernelIdeal Cert.KernelIdeal.Gen
open Idealize.ShloMosaic.ValueIdx

/-- A column `[a, 1]` broadcast along its unit axis to `[a, b]` reads, at `(p, c)`, the column's entry of row `p`. -/
theorem broadcastTo_column1_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The contraction of the layer's product: rows of 64 features against the 64 × 64 weights. -/
abbrev contraction1 := dot_S10000x64_S64x64_S10000x64_1_0_0_1_n_n

/-- One tile's result at row `p`, feature `q`: the normalised row times column `q` of the weights, plus the bias,
    floored at zero. The rounding to the narrow format before the product is the identity on the extended reals, the
    product into the zero accumulator is the plain sum over the 64 features. -/
theorem payload1_apply (x0 : Vec Ideal S10000x64 .f32) (x1 : Vec Ideal S10000x1 .f32) (x2 : Vec Ideal S64x64 .f32)
    (x3 : Vec Ideal S1x64 .f32) (p : Fin 10000) (q : Fin 64) :
    k1_pay1 x0 x1 x2 x3 (ix2 p q)
      = max ((∑ k : Fin 64, (x0 (ix2 p k) * x1 (ix2 p 0)) * x2 (ix2 k q)) + x3 (ix2 0 q)) (Ideal.ofBits .f32 0x00000000#32) := by
  unfold k1_pay1
  simp only [shapeCast_self]
  rw [maximumf_apply, addf_apply, broadcast_apply, broadcastTo_1b_ab_apply]
  simp only [matmul]
  rw [Ideal.matmul_constant_zero_apply, ← Equiv.sum_comp (contrEquiv1 contraction1 64 rfl rfl).symm]
  show max ((∑ k : Fin 64, _) + _) _ = _
  congr 2
  refine Finset.sum_congr rfl fun k _ => ?_
  have hk := contrEquiv1_symm_val contraction1 64 rfl rfl k
  have el : contraction1.lhsIdx (ix2 p q) ((contrEquiv1 contraction1 64 rfl rfl).symm k) = ix2 p k := funext fun a => Fin.ext (by
    match a with
    | ⟨0, _⟩ => rfl
    | ⟨1, _⟩ => exact (contraction1.lhsIdx_val_of_single rfl (ix2 p q) _).trans hk)
  have er : contraction1.rhsIdx (ix2 p q) ((contrEquiv1 contraction1 64 rfl rfl).symm k) = ix2 k q := funext fun a => Fin.ext (by
    match a with
    | ⟨0, _⟩ => exact (contraction1.rhsIdx_val_of_single rfl (ix2 p q) _).trans hk
    | ⟨1, _⟩ => rfl)
  rw [el, er, truncf_apply, truncf_apply, mulf_apply, broadcastTo_column1_apply]

/-- A tile's result is the layer's function at the node the tile's row stands for, once each operand the tile reads is
    the matching entry of the whole arrays. -/
theorem payload1_eq_hidden (A : FVec Ideal Cert.GraphConv.SNx64 .f32) (D : FVec Ideal Cert.GraphConv.SNx1 .f32)
    (W : FVec Ideal Cert.GraphConv.SW64 .f32) (B : FVec Ideal Cert.GraphConv.SB64 .f32)
    (x0 : Vec Ideal S10000x64 .f32) (x1 : Vec Ideal S10000x1 .f32) (x2 : Vec Ideal S64x64 .f32) (x3 : Vec Ideal S1x64 .f32)
    (p : Fin 10000) (q : Fin 64) (i : Cert.GraphConv.SNx64.Idx)
    (h0 : ∀ k : Fin 64, x0 (ix2 p k) = A (ix2 (n0 := 100000) (n1 := 64) (i 0) k))
    (h1 : x1 (ix2 p 0) = D (ix2 (n0 := 100000) (n1 := 1) (i 0) 0))
    (h2 : ∀ k : Fin 64, x2 (ix2 k q) = W (ix2 (n0 := 64) (n1 := 64) k (i 1)))
    (h3 : x3 (ix2 0 q) = B (ix2 (n0 := 1) (n1 := 64) 0 (i 1))) :
    k1_pay1 x0 x1 x2 x3 (ix2 p q) = Cert.GraphConv.hidden A D W B i := by
  rw [payload1_apply]
  unfold Cert.GraphConv.hidden Cert.GraphConv.lin64
  simp only [h0, h1, h2, h3]

variable (V : (c : Dev nD) → (b : Ref sig .tc) → Buf (Elt Ideal) ((c : Thread nD τ).loc b))

theorem zero_offsets1 : (![0, 0] : Fin 2 → Nat) = fun _ => 0 := funext fun a => by fin_cases a <;> rfl

/-- Where the ten tiles sit: tile `t` of the features, of the per-node factors and of the result is the `t`-th run of
    10000 rows; the weights and the bias are read whole at every tile. -/
theorem tile_indices1 : ∀ t : Fin cfg1.N,
    win1_4.index t (0 : Fin 2) = t.val ∧ win1_4.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- Tile `t` of the aggregated features holds rows `10000 t … 10000 t + 9999`. -/
theorem features_tile1 (c : Dev nD) (t : Fin cfg1.N) (x : S10000x64.Idx) (i : S100000x64.Idx)
    (h0 : (i 0).val = t.val * 10000 + (x 0).val) (h1 : (i 1).val = (x 1).val) :
    (iblk1 V c 0 t : Vec Ideal S10000x64 .f32) x = (V c main_v41 : S100000x64.Idx → Elt Ideal .f32) i := by
  obtain ⟨-, -, e0, e1, -⟩ := tile_indices1 t
  unfold iblk1
  rw [View.read_apply]
  show V c main_v41 _ = V c main_v41 _
  congr 1
  funext a
  apply Fin.ext
  match a with
  | ⟨0, _⟩ => show win1_0.index t (0 : Fin 2) * 10000 + 1 * (x 0).val = (i 0).val; omega
  | ⟨1, _⟩ => show win1_0.index t (1 : Fin 2) * 64 + 1 * (x 1).val = (i 1).val; omega

/-- Tile `t` of the per-node factors holds the same rows of the column. -/
theorem factors_tile1 (c : Dev nD) (t : Fin cfg1.N) (x : S10000x1.Idx) (i : S100000x1.Idx)
    (h0 : (i 0).val = t.val * 10000 + (x 0).val) (h1 : (i 1).val = (x 1).val) :
    (iblk1 V c 1 t : Vec Ideal S10000x1 .f32) x = (V c main_v42 : S100000x1.Idx → Elt Ideal .f32) i := by
  obtain ⟨-, -, -, -, e0, e1, -⟩ := tile_indices1 t
  unfold iblk1
  rw [View.read_apply]
  show V c main_v42 _ = V c main_v42 _
  congr 1
  funext a
  apply Fin.ext
  match a with
  | ⟨0, _⟩ => show win1_1.index t (0 : Fin 2) * 10000 + 1 * (x 0).val = (i 0).val; omega
  | ⟨1, _⟩ => show win1_1.index t (1 : Fin 2) * 1 + 1 * (x 1).val = (i 1).val; omega

/-- Every tile reads the whole weight matrix. -/
theorem weights_tile1 (c : Dev nD) (t : Fin cfg1.N) (x : S64x64.Idx) :
    (iblk1 V c 2 t : Vec Ideal S64x64 .f32) x = (V c main_arg5 : S64x64.Idx → Elt Ideal .f32) x := by
  obtain ⟨-, -, -, -, -, -, e0, e1, -⟩ := tile_indices1 t
  unfold iblk1
  rw [View.read_apply]
  show V c main_arg5 _ = V c main_arg5 _
  congr 1
  funext a
  apply Fin.ext
  match a with
  | ⟨0, _⟩ => show win1_2.index t (0 : Fin 2) * 64 + 1 * (x 0).val = (x 0).val; omega
  | ⟨1, _⟩ => show win1_2.index t (1 : Fin 2) * 64 + 1 * (x 1).val = (x 1).val; omega

/-- Every tile reads the whole bias row. -/
theorem bias_tile1 (c : Dev nD) (t : Fin cfg1.N) (x : S1x64.Idx) :
    (iblk1 V c 3 t : Vec Ideal S1x64 .f32) x = (V c main_v43 : S1x64.Idx → Elt Ideal .f32) x := by
  obtain ⟨-, -, -, -, -, -, -, -, e0, e1⟩ := tile_indices1 t
  unfold iblk1
  rw [View.read_apply]
  show V c main_v43 _ = V c main_v43 _
  congr 1
  funext a
  apply Fin.ext
  match a with
  | ⟨0, _⟩ => show win1_3.index t (0 : Fin 2) * 1 + 1 * (x 0).val = (x 0).val; omega
  | ⟨1, _⟩ => show win1_3.index t (1 : Fin 2) * 64 + 1 * (x 1).val = (x 1).val; omega

/-- What tile `t` writes back is tile `t` of the layer's function of the arrays the region was entered with. -/
theorem flushed1_eq (c : Dev nD) (t : Fin cfg1.N) :
    (dat1 (F := Ideal) V c).flushed 4 t = ((cfg1.win 4).blk t).view.read (Elt Ideal)
      (Cert.GraphConv.hidden (V c main_v41) (V c main_v42) (V c main_arg5) (V c main_v43)) := by
  show (cfg1.win 4).cut (grid1.coords t) ((dat1 V c).after 4 t) = _
  rw [after1_4]
  unfold out1_4
  rw [View.canon_unit_zero zero_offsets1]
  simp only [View.ld_unit_zero (S := S10000x64) zero_offsets1, View.ld_unit_zero (S := S10000x1) zero_offsets1,
    View.ld_unit_zero (S := S64x64) zero_offsets1, View.ld_unit_zero (S := S1x64) zero_offsets1]
  obtain ⟨e0, e1, -⟩ := tile_indices1 t
  refine funext fun (j : S10000x64.Idx) => ?_
  show k1_pay1 (iblk1 V c 0 t) (iblk1 V c 1 t) (iblk1 V c 2 t) (iblk1 V c 3 t) j
    = Cert.GraphConv.hidden (V c main_v41) (V c main_v42) (V c main_arg5) (V c main_v43) (((cfg1.win 4).blk t).view.emb j)
  obtain ⟨p, q, rfl⟩ : ∃ (p : Fin 10000) (q : Fin 64), j = ix2 p q := ⟨j 0, j 1, eq_ix2 j⟩
  have hr : (((cfg1.win 4).blk t).view.emb (ix2 p q) 0).val = t.val * 10000 + p.val := by
    show win1_4.index t (0 : Fin 2) * 10000 + 1 * p.val = _; omega
  have hc : (((cfg1.win 4).blk t).view.emb (ix2 p q) 1).val = q.val := by
    show win1_4.index t (1 : Fin 2) * 64 + 1 * q.val = _; omega
  refine payload1_eq_hidden _ _ _ _ (iblk1 V c 0 t) (iblk1 V c 1 t) (iblk1 V c 2 t) (iblk1 V c 3 t) p q _ ?_ ?_ ?_ ?_
  · intro k
    exact features_tile1 V c t (ix2 p k) _ hr rfl
  · exact factors_tile1 V c t (ix2 p 0) _ hr rfl
  · intro k
    refine (weights_tile1 V c t (ix2 k q)).trans (congrArg _ (funext fun a => Fin.ext ?_))
    match a with
    | ⟨0, _⟩ => rfl
    | ⟨1, _⟩ => exact hc.symm
  · refine (bias_tile1 V c t (ix2 0 q)).trans (congrArg _ (funext fun a => Fin.ext ?_))
    match a with
    | ⟨0, _⟩ => rfl
    | ⟨1, _⟩ => exact hc.symm

/-- A node's row lies in a tile exactly when it lies in the tile's run of rows. -/
theorem mem_tile1 (t : Fin cfg1.N) (i : S100000x64.Idx) :
    i ∈ ((cfg1.win 4).blk t).view.set ↔ ∀ a : Fin 2, win1_4.index t a * S10000x64.size a ≤ (i a).val
      ∧ (i a).val < win1_4.index t a * S10000x64.size a + S10000x64.size a := by
  show i ∈ ((View.whole main_v44).slice (win1_4.rect t)).set ↔ _
  rw [View.set_slice_whole, Rect.mem_set_unit]
  exact Iff.rfl

/-- After the ten tiles the result array holds the hidden layer of the arrays the region was entered with: node `r` is
    written by tile `r / 10000`, and every tile is written back. -/
theorem region1 (c : Dev nD) :
    (dat1 (F := Ideal) V c).arrAt 4 cfg1.N
      = Cert.GraphConv.hidden (V c main_v41) (V c main_v42) (V c main_arg5) (V c main_v43) :=
  (dat1 V c).arrAt_eq_of_cover 4 (Cert.GraphConv.hidden (V c main_v41) (V c main_v42) (V c main_arg5) (V c main_v43))
    (fun t _ => flushed1_eq V c t) fun i => by
      have hi0 : (i 0).val < 100000 := (i 0).isLt
      have hi1 : (i 1).val < 64 := (i 1).isLt
      obtain ⟨t, ht⟩ : ∃ t : Fin cfg1.N, t.val = (i 0).val / 10000 :=
        ⟨⟨(i 0).val / 10000, by rw [show cfg1.N = 10 from N_1]; omega⟩, rfl⟩
      obtain ⟨e0, e1, -⟩ := tile_indices1 t
      refine ⟨t, flush1_4 t, ?_⟩
      rw [mem_tile1]
      intro a
      match a with
      | ⟨0, _⟩ =>
        show win1_4.index t (0 : Fin 2) * 10000 ≤ (i 0).val ∧ (i 0).val < win1_4.index t (0 : Fin 2) * 10000 + 10000
        omega
      | ⟨1, _⟩ =>
        show win1_4.index t (1 : Fin 2) * 64 ≤ (i 1).val ∧ (i 1).val < win1_4.index t (1 : Fin 2) * 64 + 64
        omega

end Cert.KernelIdeal.RegionValue
end
-- ==== Proof.Region2.lean ====
/-
  The last region's ten tiles, put together, are the output layer of the arrays the region was entered with.

  One tile computes, at its row p and class q, the normalised row p of its run of nodes times column q of the weights,
  plus the bias: the rounding to the narrow format before the product is the identity on the extended reals, and the
  product into a zero accumulator is the plain sum over the 64 features, k ascending. Tile t holds rows
  10000 t … 10000 t + 9999 of the features, the factors and the result and sees the weights and the bias whole, so
  what it writes back is its run of rows of the specification's scores; node r lies in tile r / 10000 and every tile
  is written back, so the tiles cover the array.
-/
import proofs.«150306_j20220706030037_1_alg».proof.Proof.Gen.KernelIdeal.Frame
import proofs.«150306_j20220706030037_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section
namespace Cert.KernelIdeal.RegionValue
open Idealize.ShloMosaic Idealize.ShloMosaic.TcCoe Idealize.SL.Sem Cert.KernelIdeal Cert.KernelIdeal.Gen
open Idealize.ShloMosaic.ValueIdx

/-- A column [a, 1] broadcast along its unit axis to [a, b] reads, at (p, c), the column's entry of row p. -/
theorem broadcastTo_column2_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The contraction of the output layer's product: rows of 64 features against the 64 × 40 weights. -/
abbrev contraction2 := dot_S10000x64_S64x40_S10000x40_1_0_0_1_n_n

/-- One tile's result at row p, class q: the normalised row times column q of the weights, plus the bias. -/
theorem payload2_apply (x0 : Vec Ideal S10000x64 .f32) (x1 : Vec Ideal S10000x1 .f32) (x2 : Vec Ideal S64x40 .f32)
    (x3 : Vec Ideal S1x40 .f32) (p : Fin 10000) (q : Fin 40) :
    k2_pay1 x0 x1 x2 x3 (ix2 p q)
      = (∑ k : Fin 64, (x0 (ix2 p k) * x1 (ix2 p 0)) * x2 (ix2 k q)) + x3 (ix2 0 q) := by
  unfold k2_pay1
  simp only [shapeCast_self]
  rw [addf_apply, broadcastTo_1b_ab_apply]
  simp only [matmul]
  rw [Ideal.matmul_constant_zero_apply, ← Equiv.sum_comp (contrEquiv1 contraction2 64 rfl rfl).symm]
  show (∑ k : Fin 64, _) + _ = _
  congr 1
  refine Finset.sum_congr rfl fun k _ => ?_
  have hk := contrEquiv1_symm_val contraction2 64 rfl rfl k
  have el : contraction2.lhsIdx (ix2 p q) ((contrEquiv1 contraction2 64 rfl rfl).symm k) = ix2 p k := funext fun a => Fin.ext (by
    match a with
    | ⟨0, _⟩ => rfl
    | ⟨1, _⟩ => exact (contraction2.lhsIdx_val_of_single rfl (ix2 p q) _).trans hk)
  have er : contraction2.rhsIdx (ix2 p q) ((contrEquiv1 contraction2 64 rfl rfl).symm k) = ix2 k q := funext fun a => Fin.ext (by
    match a with
    | ⟨0, _⟩ => exact (contraction2.rhsIdx_val_of_single rfl (ix2 p q) _).trans hk
    | ⟨1, _⟩ => rfl)
  rw [el, er, truncf_apply, truncf_apply, mulf_apply, broadcastTo_column2_apply]

/-- A tile's result is the output layer's function at the node the tile's row stands for, once each operand the tile
    reads is the matching entry of the whole arrays. -/
theorem payload2_eq_scores (A : FVec Ideal Cert.GraphConv.SNx64 .f32) (D : FVec Ideal Cert.GraphConv.SNx1 .f32)
    (W : FVec Ideal Cert.GraphConv.SW40 .f32) (B : FVec Ideal Cert.GraphConv.SB40 .f32)
    (x0 : Vec Ideal S10000x64 .f32) (x1 : Vec Ideal S10000x1 .f32) (x2 : Vec Ideal S64x40 .f32) (x3 : Vec Ideal S1x40 .f32)
    (p : Fin 10000) (q : Fin 40) (i : Cert.GraphConv.SNx40.Idx)
    (h0 : ∀ k : Fin 64, x0 (ix2 p k) = A (ix2 (n0 := 100000) (n1 := 64) (i 0) k))
    (h1 : x1 (ix2 p 0) = D (ix2 (n0 := 100000) (n1 := 1) (i 0) 0))
    (h2 : ∀ k : Fin 64, x2 (ix2 k q) = W (ix2 (n0 := 64) (n1 := 40) k (i 1)))
    (h3 : x3 (ix2 0 q) = B (ix2 (n0 := 1) (n1 := 40) 0 (i 1))) :
    k2_pay1 x0 x1 x2 x3 (ix2 p q) = Cert.GraphConv.scores A D W B i := by
  rw [payload2_apply]
  unfold Cert.GraphConv.scores
  simp only [h0, h1, h2, h3]

variable (V : (c : Dev nD) → (b : Ref sig .tc) → Buf (Elt Ideal) ((c : Thread nD τ).loc b))

theorem zero_offsets2 : (![0, 0] : Fin 2 → Nat) = fun _ => 0 := funext fun a => by fin_cases a <;> rfl

/-- Where the ten tiles sit: tile t of the features, of the per-node factors and of the result is the t-th run of
    10000 rows; the weights and the bias are read whole at every tile. -/
theorem tile_indices2 : ∀ t : Fin cfg2.N,
    win2_4.index t (0 : Fin 2) = t.val ∧ win2_4.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

/-- Tile t of the aggregated features holds rows 10000 t … 10000 t + 9999. -/
theorem features_tile2 (c : Dev nD) (t : Fin cfg2.N) (x : S10000x64.Idx) (i : S100000x64.Idx)
    (h0 : (i 0).val = t.val * 10000 + (x 0).val) (h1 : (i 1).val = (x 1).val) :
    (iblk2 V c 0 t : Vec Ideal S10000x64 .f32) x = (V c main_v57 : S100000x64.Idx → Elt Ideal .f32) i := by
  obtain ⟨-, -, e0, e1, -⟩ := tile_indices2 t
  unfold iblk2
  rw [View.read_apply]
  show V c main_v57 _ = V c main_v57 _
  congr 1
  funext a
  apply Fin.ext
  match a with
  | ⟨0, _⟩ => show win2_0.index t (0 : Fin 2) * 10000 + 1 * (x 0).val = (i 0).val; omega
  | ⟨1, _⟩ => show win2_0.index t (1 : Fin 2) * 64 + 1 * (x 1).val = (i 1).val; omega

/-- Tile t of the per-node factors holds the same rows of the column. -/
theorem factors_tile2 (c : Dev nD) (t : Fin cfg2.N) (x : S10000x1.Idx) (i : S100000x1.Idx)
    (h0 : (i 0).val = t.val * 10000 + (x 0).val) (h1 : (i 1).val = (x 1).val) :
    (iblk2 V c 1 t : Vec Ideal S10000x1 .f32) x = (V c main_v59 : S100000x1.Idx → Elt Ideal .f32) i := by
  obtain ⟨-, -, -, -, e0, e1, -⟩ := tile_indices2 t
  unfold iblk2
  rw [View.read_apply]
  show V c main_v59 _ = V c main_v59 _
  congr 1
  funext a
  apply Fin.ext
  match a with
  | ⟨0, _⟩ => show win2_1.index t (0 : Fin 2) * 10000 + 1 * (x 0).val = (i 0).val; omega
  | ⟨1, _⟩ => show win2_1.index t (1 : Fin 2) * 1 + 1 * (x 1).val = (i 1).val; omega

/-- Every tile reads the whole weight matrix. -/
theorem weights_tile2 (c : Dev nD) (t : Fin cfg2.N) (x : S64x40.Idx) :
    (iblk2 V c 2 t : Vec Ideal S64x40 .f32) x = (V c main_arg7 : S64x40.Idx → Elt Ideal .f32) x := by
  obtain ⟨-, -, -, -, -, -, e0, e1, -⟩ := tile_indices2 t
  unfold iblk2
  rw [View.read_apply]
  show V c main_arg7 _ = V c main_arg7 _
  congr 1
  funext a
  apply Fin.ext
  match a with
  | ⟨0, _⟩ => show win2_2.index t (0 : Fin 2) * 64 + 1 * (x 0).val = (x 0).val; omega
  | ⟨1, _⟩ => show win2_2.index t (1 : Fin 2) * 40 + 1 * (x 1).val = (x 1).val; omega

/-- Every tile reads the whole bias row. -/
theorem bias_tile2 (c : Dev nD) (t : Fin cfg2.N) (x : S1x40.Idx) :
    (iblk2 V c 3 t : Vec Ideal S1x40 .f32) x = (V c main_v60 : S1x40.Idx → Elt Ideal .f32) x := by
  obtain ⟨-, -, -, -, -, -, -, -, e0, e1⟩ := tile_indices2 t
  unfold iblk2
  rw [View.read_apply]
  show V c main_v60 _ = V c main_v60 _
  congr 1
  funext a
  apply Fin.ext
  match a with
  | ⟨0, _⟩ => show win2_3.index t (0 : Fin 2) * 1 + 1 * (x 0).val = (x 0).val; omega
  | ⟨1, _⟩ => show win2_3.index t (1 : Fin 2) * 40 + 1 * (x 1).val = (x 1).val; omega

/-- What tile t writes back is tile t of the output layer's function of the arrays the region was entered with. -/
theorem flushed2_eq (c : Dev nD) (t : Fin cfg2.N) :
    (dat2 (F := Ideal) V c).flushed 4 t = ((cfg2.win 4).blk t).view.read (Elt Ideal)
      (Cert.GraphConv.scores (V c main_v57) (V c main_v59) (V c main_arg7) (V c main_v60)) := by
  show (cfg2.win 4).cut (grid2.coords t) ((dat2 V c).after 4 t) = _
  rw [after2_4]
  unfold out2_4
  rw [View.canon_unit_zero zero_offsets2]
  simp only [View.ld_unit_zero (S := S10000x64) zero_offsets2, View.ld_unit_zero (S := S10000x1) zero_offsets2,
    View.ld_unit_zero (S := S64x40) zero_offsets2, View.ld_unit_zero (S := S1x40) zero_offsets2]
  obtain ⟨e0, e1, -⟩ := tile_indices2 t
  refine funext fun (j : S10000x40.Idx) => ?_
  show k2_pay1 (iblk2 V c 0 t) (iblk2 V c 1 t) (iblk2 V c 2 t) (iblk2 V c 3 t) j
    = Cert.GraphConv.scores (V c main_v57) (V c main_v59) (V c main_arg7) (V c main_v60) (((cfg2.win 4).blk t).view.emb j)
  obtain ⟨p, q, rfl⟩ : ∃ (p : Fin 10000) (q : Fin 40), j = ix2 p q := ⟨j 0, j 1, eq_ix2 j⟩
  have hr : (((cfg2.win 4).blk t).view.emb (ix2 p q) 0).val = t.val * 10000 + p.val := by
    show win2_4.index t (0 : Fin 2) * 10000 + 1 * p.val = _; omega
  have hc : (((cfg2.win 4).blk t).view.emb (ix2 p q) 1).val = q.val := by
    show win2_4.index t (1 : Fin 2) * 40 + 1 * q.val = _; omega
  refine payload2_eq_scores _ _ _ _ (iblk2 V c 0 t) (iblk2 V c 1 t) (iblk2 V c 2 t) (iblk2 V c 3 t) p q _ ?_ ?_ ?_ ?_
  · intro k
    exact features_tile2 V c t (ix2 p k) _ hr rfl
  · exact factors_tile2 V c t (ix2 p 0) _ hr rfl
  · intro k
    refine (weights_tile2 V c t (ix2 k q)).trans (congrArg _ (funext fun a => Fin.ext ?_))
    match a with
    | ⟨0, _⟩ => rfl
    | ⟨1, _⟩ => exact hc.symm
  · refine (bias_tile2 V c t (ix2 0 q)).trans (congrArg _ (funext fun a => Fin.ext ?_))
    match a with
    | ⟨0, _⟩ => rfl
    | ⟨1, _⟩ => exact hc.symm

/-- A node's row of scores lies in a tile exactly when it lies in the tile's run of rows. -/
theorem mem_tile2 (t : Fin cfg2.N) (i : S100000x40.Idx) :
    i ∈ ((cfg2.win 4).blk t).view.set ↔ ∀ a : Fin 2, win2_4.index t a * S10000x40.size a ≤ (i a).val
      ∧ (i a).val < win2_4.index t a * S10000x40.size a + S10000x40.size a := by
  show i ∈ ((View.whole main_v61).slice (win2_4.rect t)).set ↔ _
  rw [View.set_slice_whole, Rect.mem_set_unit]
  exact Iff.rfl

/-- After the ten tiles the result array holds the output layer of the arrays the region was entered with: node r is
    written by tile r / 10000, and every tile is written back. -/
theorem region2 (c : Dev nD) :
    (dat2 (F := Ideal) V c).arrAt 4 cfg2.N
      = Cert.GraphConv.scores (V c main_v57) (V c main_v59) (V c main_arg7) (V c main_v60) :=
  (dat2 V c).arrAt_eq_of_cover 4 (Cert.GraphConv.scores (V c main_v57) (V c main_v59) (V c main_arg7) (V c main_v60))
    (fun t _ => flushed2_eq V c t) fun i => by
      have hi0 : (i 0).val < 100000 := (i 0).isLt
      have hi1 : (i 1).val < 40 := (i 1).isLt
      obtain ⟨t, ht⟩ : ∃ t : Fin cfg2.N, t.val = (i 0).val / 10000 :=
        ⟨⟨(i 0).val / 10000, by rw [show cfg2.N = 10 from N_2]; omega⟩, rfl⟩
      obtain ⟨e0, e1, -⟩ := tile_indices2 t
      refine ⟨t, flush2_4 t, ?_⟩
      rw [mem_tile2]
      intro a
      match a with
      | ⟨0, _⟩ =>
        show win2_4.index t (0 : Fin 2) * 10000 ≤ (i 0).val ∧ (i 0).val < win2_4.index t (0 : Fin 2) * 10000 + 10000
        omega
      | ⟨1, _⟩ =>
        show win2_4.index t (1 : Fin 2) * 40 ≤ (i 1).val ∧ (i 1).val < win2_4.index t (1 : Fin 2) * 40 + 40
        omega

end Cert.KernelIdeal.RegionValue
end
-- ==== Proof.Run.lean ====
/-
  The kernel program's run, with its result read.

  The program is three tiled regions among stretches of whole-array operations. Its run is followed boundary by
  boundary: `W0` is the memory at launch, each stretch of whole-array operations maps the contents at one boundary
  to the next (`W1`, `W3`, `W5`), and each region replaces the arrays it owns by what its write-backs leave and
  keeps every other buffer (`W2`, `W4`, `W6`). The last thread state holds every buffer at `W6`; reading the
  final memory against it gives, beside the unchanged arguments, the result buffer at `W6` — the value that the
  later modules walk back through the boundaries to the arguments.
-/
import proofs.«150306_j20220706030037_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents `W6`, and every argument array ends as launched. -/
theorem run_main : θ_run defs (onTc (τ := τ) (main (F := F))) ⟨m, fun _ => 0, ρ⟩ (fun r => ∀ c : Dev nD,
      r.2.mem ((c.tc : Thread nD τ).loc main_v61) = W6 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v61 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.KernelIdeal.RunValue

end
-- ==== Proof.Value.lean ====
/-
  The kernel program ends with the network's value.

  The result buffer is an array of the last region, so the last boundary holds it at what that region's
  write-backs leave: the output layer `scores` of the four arrays the region was entered with. Those are the third
  stretch's terms of region 1's output, which is the hidden layer of region 1's entry arrays, and so on back to the
  launch memory: three rounds of "aggregate, then dense step", over node factors computed once — the function
  `network` of the argument arrays.
-/
import proofs.«150306_j20220706030037_1_alg».proof.Proof.Boundaries
import proofs.«150306_j20220706030037_1_alg».proof.Proof.Region0
import proofs.«150306_j20220706030037_1_alg».proof.Proof.Region1
import proofs.«150306_j20220706030037_1_alg».proof.Proof.Region2
import proofs.«150306_j20220706030037_1_alg».proof.Proof.Run

set_option maxRecDepth 16384

noncomputable section

namespace Cert.KernelIdeal.NetValue

open Idealize.ShloMosaic Idealize.ShloMosaic.TcCoe Idealize.SL.Sem
open Cert.KernelIdeal Cert.KernelIdeal.Gen Cert.GraphConv Cert.KernelIdeal.Boundaries

variable (m : (ℓ : Loc nD τ sig) → Buf (Elt Ideal) ℓ) (ρ : Dev nD → PrngReg)

/-- After region 0: the first hidden layer. -/
theorem layer1 (c : Dev nD) :
    W2 m ρ c (Proc.devRef .tc main_v28)
      = hidden (aggregate (m ((c : Thread nD τ).loc main_arg0)) (nodeFactor (m ((c : Thread nD τ).loc main_arg1))) (m ((c : Thread nD τ).loc main_arg1)) (m ((c : Thread nD τ).loc main_arg2))) (col (nodeFactor (m ((c : Thread nD τ).loc main_arg2)))) (m ((c : Thread nD τ).loc main_arg3)) (row64 (m ((c : Thread nD τ).loc main_arg4))) := by
  refine (W2_arr m ρ c 4).trans ((RegionValue.region0 (V1 m ρ) c).trans ?_)
  rw [agg_at1, col_at1, w_at1, row_at1]

/-- After region 1: the second hidden layer, of the first. -/
theorem layer2 (c : Dev nD) :
    W4 m ρ c (Proc.devRef .tc main_v44)
      = hidden (aggregate (W2 m ρ c (Proc.devRef .tc main_v28)) (nodeFactor (m ((c : Thread nD τ).loc main_arg1))) (m ((c : Thread nD τ).loc main_arg1)) (m ((c : Thread nD τ).loc main_arg2))) (col (nodeFactor (m ((c : Thread nD τ).loc main_arg2)))) (m ((c : Thread nD τ).loc main_arg5)) (row64 (m ((c : Thread nD τ).loc main_arg6))) := by
  refine (W4_arr m ρ c 4).trans ((RegionValue.region1 (V3 m ρ) c).trans ?_)
  rw [agg_at3, col_at3, w_at3, row_at3]

/-- After region 2: the class scores, of the second hidden layer. -/
theorem layer3 (c : Dev nD) :
    W6 m ρ c (Proc.devRef .tc main_v61)
      = scores (aggregate (W4 m ρ c (Proc.devRef .tc main_v44)) (nodeFactor (m ((c : Thread nD τ).loc main_arg1))) (m ((c : Thread nD τ).loc main_arg1)) (m ((c : Thread nD τ).loc main_arg2))) (col (nodeFactor (m ((c : Thread nD τ).loc main_arg2)))) (m ((c : Thread nD τ).loc main_arg7)) (row40 (head40 (m ((c : Thread nD τ).loc main_arg8)))) := by
  refine (W6_arr m ρ c 4).trans ((RegionValue.region2 (V5 m ρ) c).trans ?_)
  rw [agg_at5, col_at5, w_at5, row_at5]

/-- The result buffer at the last boundary is the network of the argument arrays. -/
theorem result (c : Dev nD) :
    W6 m ρ c (Proc.devRef .tc main_v61) = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [layer3, layer2, layer1]
  rfl

/-- Every weakly fair execution of the kernel program terminates without a fault, its result the network of the
    argument arrays, the arguments unchanged. -/
theorem run : θ_run defs (onTc (τ := τ) (main (F := Ideal))) ⟨m, fun _ => 0, ρ⟩ (fun r => ∀ c : Dev nD,
      r.2.mem ((c.tc : Thread nD τ).loc main_v61) = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result m ρ c), (h c).2⟩) (RunValue.run_main m ρ)

end Cert.KernelIdeal.NetValue

end
-- ==== Proof.RefLayer.lean ====
/-
  The dense step of a layer as the whole-array program writes it — scale each node's row by its factor, multiply by
  the weights, add the bias row, and (in the hidden layers) floor at zero — is the function the specification names.

  Every operation involved reads one element of each operand at a computable index, except the matrix product, which
  at node r and column j is the sum over k of the left operand at (r, k) times the right one at (k, j), k ascending.
  So the equality is read off coordinate by coordinate: the two sides are the same sum of the same terms in the same
  order, once the factor column and the bias row the specification takes are known to hold, at (r, 0) and (0, j), the
  entries of the vectors the program broadcasts. No law of the extended reals is used.
-/
import proofs.«150306_j20220706030037_1_alg».proof.Proof.Gen.ReferenceIdeal
import proofs.«150306_j20220706030037_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefLayer

open Idealize.ShloMosaic Idealize.ShloMosaic.ValueIdx Cert.ReferenceIdeal Cert.ReferenceIdeal.Gen

/-! ### The 64-column product at an index -/

/-- The left operand's row coordinate is the result's. -/
theorem dot64_lhs0 (i : S100000x64.Idx) (q : dot_S100000x64_S64x64_S100000x64_1_0_0_1_n_n.contr.Idx) : (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide),
    dif_pos (show (0 : Fin S100000x64.rank) ∈ dot_S100000x64_S64x64_S100000x64_1_0_0_1_n_n.lhsNonContracting by decide)]
  rfl
/-- The left operand's column coordinate is the contraction index. -/
theorem dot64_lhs1 (i : S100000x64.Idx) (q : dot_S100000x64_S64x64_S100000x64_1_0_0_1_n_n.contr.Idx) : (dot_S100000x64_S64x64_S100000x64_1_0_0_1_n_n.lhsIdx i q 1).val = (q ⟨0, by decide⟩).val :=
  dot_S100000x64_S64x64_S100000x64_1_0_0_1_n_n.lhsIdx_val_of_single rfl i q
/-- The right operand's row coordinate is the contraction index. -/
theorem dot64_rhs0 (i : S100000x64.Idx) (q : dot_S100000x64_S64x64_S100000x64_1_0_0_1_n_n.contr.Idx) : (dot_S100000x64_S64x64_S100000x64_1_0_0_1_n_n.rhsIdx i q 0).val = (q ⟨0, by decide⟩).val :=
  dot_S100000x64_S64x64_S100000x64_1_0_0_1_n_n.rhsIdx_val_of_single rfl i q
/-- The right operand's column coordinate is the result's. -/
theorem dot64_rhs1 (i : S100000x64.Idx) (q : dot_S100000x64_S64x64_S100000x64_1_0_0_1_n_n.contr.Idx) : (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide),
    dif_pos (show (1 : Fin S64x64.rank) ∈ dot_S100000x64_S64x64_S100000x64_1_0_0_1_n_n.rhsNonContracting by decide)]
  rfl

/-- The 64-column product at node r, column j, is the sum over k of y (r, k) · w (k, j), k ascending:
    the left operand is read along its row, the right one down its column. -/
theorem dot64_apply (y : FVec Ideal S100000x64 .f32) (w : FVec Ideal S64x64 .f32) (r : Fin 100000) (j : Fin 64) :
    Host.dotGeneral dot_S100000x64_S64x64_S100000x64_1_0_0_1_n_n none y w (ix2 r j)
      = ∑ k : Fin 64, y (ix2 r k) * w (ix2 k j) := by
  simp only [Host.dotGeneral]
  rw [Ideal.dotGeneral_apply, ← Equiv.sum_comp (contrEquiv1 dot_S100000x64_S64x64_S100000x64_1_0_0_1_n_n 64 rfl rfl).symm]
  refine Finset.sum_congr rfl fun k _ => ?_
  have hk := contrEquiv1_symm_val dot_S100000x64_S64x64_S100000x64_1_0_0_1_n_n 64 rfl rfl k
  have el : dot_S100000x64_S64x64_S100000x64_1_0_0_1_n_n.lhsIdx (ix2 r j) ((contrEquiv1 dot_S100000x64_S64x64_S100000x64_1_0_0_1_n_n 64 rfl rfl).symm k) = ix2 r k :=
    funext fun a => Fin.ext (by
      match a with
      | ⟨0, _⟩ => exact dot64_lhs0 _ _
      | ⟨1, _⟩ => exact (dot64_lhs1 _ _).trans hk)
  have er : dot_S100000x64_S64x64_S100000x64_1_0_0_1_n_n.rhsIdx (ix2 r j) ((contrEquiv1 dot_S100000x64_S64x64_S100000x64_1_0_0_1_n_n 64 rfl rfl).symm k) = ix2 k j :=
    funext fun a => Fin.ext (by
      match a with
      | ⟨0, _⟩ => exact (dot64_rhs0 _ _).trans hk
      | ⟨1, _⟩ => exact dot64_rhs1 _ _)
  rw [el, er]

/-! ### The 40-column product at an index -/

/-- The left operand's row coordinate is the result's. -/
theorem dot40_lhs0 (i : S100000x40.Idx) (q : dot_S100000x64_S64x40_S100000x40_1_0_0_1_n_n.contr.Idx) : (dot_S100000x64_S64x40_S100000x40_1_0_0_1_n_n.lhsIdx i q 0).val = (i 0).val := by
  unfold DotDims.lhsIdx
  rw [dif_neg (show ¬(0 : Fin S100000x64.rank) ∈ dot_S100000x64_S64x40_S100000x40_1_0_0_1_n_n.lhsBatch by decide),
    dif_pos (show (0 : Fin S100000x64.rank) ∈ dot_S100000x64_S64x40_S100000x40_1_0_0_1_n_n.lhsNonContracting by decide)]
  rfl
/-- The left operand's column coordinate is the contraction index. -/
theorem dot40_lhs1 (i : S100000x40.Idx) (q : dot_S100000x64_S64x40_S100000x40_1_0_0_1_n_n.contr.Idx) : (dot_S100000x64_S64x40_S100000x40_1_0_0_1_n_n.lhsIdx i q 1).val = (q ⟨0, by decide⟩).val :=
  dot_S100000x64_S64x40_S100000x40_1_0_0_1_n_n.lhsIdx_val_of_single rfl i q
/-- The right operand's row coordinate is the contraction index. -/
theorem dot40_rhs0 (i : S100000x40.Idx) (q : dot_S100000x64_S64x40_S100000x40_1_0_0_1_n_n.contr.Idx) : (dot_S100000x64_S64x40_S100000x40_1_0_0_1_n_n.rhsIdx i q 0).val = (q ⟨0, by decide⟩).val :=
  dot_S100000x64_S64x40_S100000x40_1_0_0_1_n_n.rhsIdx_val_of_single rfl i q
/-- The right operand's column coordinate is the result's. -/
theorem dot40_rhs1 (i : S100000x40.Idx) (q : dot_S100000x64_S64x40_S100000x40_1_0_0_1_n_n.contr.Idx) : (dot_S100000x64_S64x40_S100000x40_1_0_0_1_n_n.rhsIdx i q 1).val = (i 1).val := by
  unfold DotDims.rhsIdx
  rw [dif_neg (show ¬(1 : Fin S64x40.rank) ∈ dot_S100000x64_S64x40_S100000x40_1_0_0_1_n_n.rhsBatch by decide),
    dif_pos (show (1 : Fin S64x40.rank) ∈ dot_S100000x64_S64x40_S100000x40_1_0_0_1_n_n.rhsNonContracting by decide)]
  rfl

/-- The 40-column product at node r, column j, is the sum over k of y (r, k) · w (k, j), k ascending:
    the left operand is read along its row, the right one down its column. -/
theorem dot40_apply (y : FVec Ideal S100000x64 .f32) (w : FVec Ideal S64x40 .f32) (r : Fin 100000) (j : Fin 40) :
    Host.dotGeneral dot_S100000x64_S64x40_S100000x40_1_0_0_1_n_n none y w (ix2 r j)
      = ∑ k : Fin 64, y (ix2 r k) * w (ix2 k j) := by
  simp only [Host.dotGeneral]
  rw [Ideal.dotGeneral_apply, ← Equiv.sum_comp (contrEquiv1 dot_S100000x64_S64x40_S100000x40_1_0_0_1_n_n 64 rfl rfl).symm]
  refine Finset.sum_congr rfl fun k _ => ?_
  have hk := contrEquiv1_symm_val dot_S100000x64_S64x40_S100000x40_1_0_0_1_n_n 64 rfl rfl k
  have el : dot_S100000x64_S64x40_S100000x40_1_0_0_1_n_n.lhsIdx (ix2 r j) ((contrEquiv1 dot_S100000x64_S64x40_S100000x40_1_0_0_1_n_n 64 rfl rfl).symm k) = ix2 r k :=
    funext fun a => Fin.ext (by
      match a with
      | ⟨0, _⟩ => exact dot40_lhs0 _ _
      | ⟨1, _⟩ => exact (dot40_lhs1 _ _).trans hk)
  have er : dot_S100000x64_S64x40_S100000x40_1_0_0_1_n_n.rhsIdx (ix2 r j) ((contrEquiv1 dot_S100000x64_S64x40_S100000x40_1_0_0_1_n_n 64 rfl rfl).symm k) = ix2 k j :=
    funext fun a => Fin.ext (by
      match a with
      | ⟨0, _⟩ => exact (dot40_rhs0 _ _).trans hk
      | ⟨1, _⟩ => exact dot40_rhs1 _ _)
  rw [el, er]

/-! ### The broadcasts at an index -/

/-- The per-node factor, first stood up as a column and then repeated along the features, read at node r and any
    feature k is the factor of node r. -/
theorem col_apply (n : FVec Ideal S100000 .f32) (r : Fin 100000) (k : Fin 64) :
    broadcastInDim S100000x64 ![0, 1] bcast_S100000x1_S100000x64_0_1
        (broadcastInDim S100000x1 ![0] bcast_S100000_S100000x1_0 n) (ix2 r k) = n (ix1 r) := by
  generalize hy : broadcastInDim S100000x1 ![0] bcast_S100000_S100000x1_0 n = y
  rw [broadcastInDim_apply _ bcast_S100000x1_S100000x64_0_1 y (ix2 r k) (ix2 r 0) (fun a => match a with
    | ⟨0, _⟩ => by show r.val = if (100000 : Nat) = 1 then 0 else r.val; rw [if_neg (by decide)]
    | ⟨1, _⟩ => by show 0 = if (1 : Nat) = 1 then 0 else k.val; rw [if_pos rfl])]
  subst hy
  exact broadcastInDim_apply _ bcast_S100000_S100000x1_0 n (ix2 r 0) (ix1 r) (fun a => match a with
    | ⟨0, _⟩ => by show r.val = if (100000 : Nat) = 1 then 0 else r.val; rw [if_neg (by decide)])

/-- The 64 biases, first laid out as a row and then repeated down the nodes, read at any node r and feature j is
    the bias of feature j. -/
theorem bias64_apply (b : FVec Ideal S64 .f32) (r : Fin 100000) (j : Fin 64) :
    broadcastInDim S100000x64 ![0, 1] bcast_S1x64_S100000x64_0_1
        (broadcastInDim S1x64 ![1] bcast_S64_S1x64_1 b) (ix2 r j) = b (ix1 j) := by
  generalize hy : broadcastInDim S1x64 ![1] bcast_S64_S1x64_1 b = y
  rw [broadcastInDim_apply _ bcast_S1x64_S100000x64_0_1 y (ix2 r j) (ix2 0 j) (fun a => match a with
    | ⟨0, _⟩ => by show 0 = if (1 : Nat) = 1 then 0 else r.val; rw [if_pos rfl]
    | ⟨1, _⟩ => by show j.val = if (64 : Nat) = 1 then 0 else j.val; rw [if_neg (by decide)])]
  subst hy
  exact broadcastInDim_apply _ bcast_S64_S1x64_1 b (ix2 0 j) (ix1 j) (fun a => match a with
    | ⟨0, _⟩ => by show j.val = if (64 : Nat) = 1 then 0 else j.val; rw [if_neg (by decide)])

/-- The floor of the hidden layers, a scalar repeated over the whole array, is that scalar everywhere. -/
theorem floor_apply (i : S100000x64.Idx) :
    broadcastInDim S100000x64 ![] bcast_S_S100000x64 (constant (F := Ideal) S_ .f32 0x00000000#32) i
      = Ideal.ofBits .f32 0x00000000#32 := by
  generalize hy : constant (F := Ideal) S_ .f32 0x00000000#32 = y
  rw [broadcastInDim_apply _ bcast_S_S100000x64 y i ix0 (fun a => a.elim0)]
  subst hy
  rfl

/-! ### A hidden layer of the reference is the specification's -/

theorem hidden_eq (a : FVec Ideal S100000x64 .f32) (n : FVec Ideal S100000 .f32) (w : FVec Ideal S64x64 .f32) (b : FVec Ideal S64 .f32)
    (d : FVec Ideal S100000x1 .f32) (b' : FVec Ideal S1x64 .f32)
    (hd : ∀ r : Fin 100000, d (ix2 r 0) = n (ix1 r)) (hb : ∀ j : Fin 64, b' (ix2 0 j) = b (ix1 j)) :
    maximumf (addf (Host.dotGeneral dot_S100000x64_S64x64_S100000x64_1_0_0_1_n_n none
          (mulf a (broadcastInDim S100000x64 ![0, 1] bcast_S100000x1_S100000x64_0_1 (broadcastInDim S100000x1 ![0] bcast_S100000_S100000x1_0 n))) w)
        (broadcastInDim S100000x64 ![0, 1] bcast_S1x64_S100000x64_0_1 (broadcastInDim S1x64 ![1] bcast_S64_S1x64_1 b)))
      (broadcastInDim S100000x64 ![] bcast_S_S100000x64 (constant (F := Ideal) S_ .f32 0x00000000#32))
    = Cert.GraphConv.hidden a d w b' := by
  funext i
  obtain ⟨r, j, rfl⟩ : ∃ (r : Fin 100000) (j : Fin 64), i = ix2 r j := ⟨i 0, i 1, eq_ix2 i⟩
  rw [maximumf_apply, addf_apply, floor_apply, bias64_apply, dot64_apply]
  unfold Cert.GraphConv.hidden Cert.GraphConv.lin64
  show max (_ + _) _ = max ((∑ k : Fin 64, (a (ix2 r k) * d (ix2 r 0)) * w (ix2 k j)) + b' (ix2 0 j)) _
  rw [hb j]
  congr 2
  refine Finset.sum_congr rfl fun k _ => ?_
  rw [mulf_apply, col_apply, hd r]

/-! ### The output layer of the reference is the specification's -/

/-- The first 40 of the 64 stored biases, laid out as a row and repeated down the nodes, read at any node r and
    class j is stored bias j. -/
theorem bias40_apply (b8 : FVec Ideal S64 .f32) (r : Fin 100000) (j : Fin 40) :
    broadcastInDim S100000x40 ![0, 1] bcast_S1x40_S100000x40_0_1
        (broadcastInDim S1x40 ![1] bcast_S40_S1x40_1 (extractStridedSlice S40 ![0] b8 slices_S64_S40_0)) (ix2 r j)
      = b8 (ix1 ⟨j.val, by omega⟩) := by
  generalize hz : extractStridedSlice S40 ![0] b8 slices_S64_S40_0 = z
  generalize hy : broadcastInDim S1x40 ![1] bcast_S40_S1x40_1 z = y
  rw [broadcastInDim_apply _ bcast_S1x40_S100000x40_0_1 y (ix2 r j) (ix2 0 j) (fun a => match a with
    | ⟨0, _⟩ => by show 0 = if (1 : Nat) = 1 then 0 else r.val; rw [if_pos rfl]
    | ⟨1, _⟩ => by show j.val = if (40 : Nat) = 1 then 0 else j.val; rw [if_neg (by decide)])]
  subst hy
  rw [broadcastInDim_apply _ bcast_S40_S1x40_1 z (ix2 0 j) (ix1 j) (fun a => match a with
    | ⟨0, _⟩ => by show j.val = if (40 : Nat) = 1 then 0 else j.val; rw [if_neg (by decide)])]
  subst hz
  exact extractStridedSlice_apply ![0] b8 slices_S64_S40_0 (ix1 j) (ix1 ⟨j.val, by omega⟩) (fun a => match a with
    | ⟨0, _⟩ => by show j.val = 0 + j.val; omega)

theorem scores_eq (a : FVec Ideal S100000x64 .f32) (n : FVec Ideal S100000 .f32) (w : FVec Ideal S64x40 .f32) (b8 : FVec Ideal S64 .f32)
    (d : FVec Ideal S100000x1 .f32) (b' : FVec Ideal S1x40 .f32)
    (hd : ∀ r : Fin 100000, d (ix2 r 0) = n (ix1 r)) (hb : ∀ j : Fin 40, b' (ix2 0 j) = b8 (ix1 ⟨j.val, by omega⟩)) :
    addf (Host.dotGeneral dot_S100000x64_S64x40_S100000x40_1_0_0_1_n_n none
          (mulf a (broadcastInDim S100000x64 ![0, 1] bcast_S100000x1_S100000x64_0_1 (broadcastInDim S100000x1 ![0] bcast_S100000_S100000x1_0 n))) w)
        (broadcastInDim S100000x40 ![0, 1] bcast_S1x40_S100000x40_0_1 (broadcastInDim S1x40 ![1] bcast_S40_S1x40_1 (extractStridedSlice S40 ![0] b8 slices_S64_S40_0)))
    = Cert.GraphConv.scores a d w b' := by
  funext i
  obtain ⟨r, j, rfl⟩ : ∃ (r : Fin 100000) (j : Fin 40), i = ix2 r j := ⟨i 0, i 1, eq_ix2 i⟩
  rw [addf_apply, bias40_apply, dot40_apply]
  unfold Cert.GraphConv.scores
  show _ + _ = (∑ k : Fin 64, (a (ix2 r k) * d (ix2 r 0)) * w (ix2 k j)) + b' (ix2 0 j)
  rw [hb j]
  congr 1
  refine Finset.sum_congr rfl fun k _ => ?_
  rw [mulf_apply, col_apply, hd r]

/-! ### A vector reshaped to a column or to a row

The factor column and the bias row a caller hands the specification are reshapes of vectors; a reshape keeps the
row-major position, so the column at (r, 0) and the row at (0, j) are the vector at r and at j. The shapes are
written out, and the reshape's side condition is any proof of it. -/

/-- An [N] array reshaped to [N, 1] reads, at (r, u), the operand at r, whatever the unit coordinate u:
    the position of (r, u) is r · 1 + 0. -/
theorem shapeCast_a_a1_apply {α : Type} {N : ℕ} (x : (⟨1, ![N]⟩ : Shape).Idx → α)
    (h : (⟨1, ![N]⟩ : Shape).ShapeCasts ⟨2, ![N, 1]⟩) (r : Fin N) (u : Fin 1) :
    shapeCast ⟨2, ![N, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- The per-node vector as a column. -/
theorem shapeCast_col_apply (x : FVec Ideal ⟨1, ![100000]⟩ .f32)
    (h : (⟨1, ![100000]⟩ : Shape).ShapeCasts ⟨2, ![100000, 1]⟩) (r : Fin 100000) :
    shapeCast ⟨2, ![100000, 1]⟩ x h (ix2 r 0) = x (ix1 r) := shapeCast_a_a1_apply x h r 0

/-- The 64 biases as a row. -/
theorem shapeCast_row64_apply (y : FVec Ideal ⟨1, ![64]⟩ .f32)
    (h : (⟨1, ![64]⟩ : Shape).ShapeCasts ⟨2, ![1, 64]⟩) (j : Fin 64) :
    shapeCast ⟨2, ![1, 64]⟩ y h (ix2 0 j) = y (ix1 j) := shapeCast_a_1a_apply y h 0 j

/-- The 40 biases as a row. -/
theorem shapeCast_row40_apply (y : FVec Ideal ⟨1, ![40]⟩ .f32)
    (h : (⟨1, ![40]⟩ : Shape).ShapeCasts ⟨2, ![1, 40]⟩) (j : Fin 40) :
    shapeCast ⟨2, ![1, 40]⟩ y h (ix2 0 j) = y (ix1 j) := shapeCast_a_1a_apply y h 0 j

end Cert.ReferenceIdeal.RefLayer

end
-- ==== Proof.RefNet.lean ====
/-
  The whole-array program, stage by stage, is the network.

  Its 94 operations fall into six groups: the two per-node factors (how often a node occurs in an index list, floored
  at one, to the power -1/2), and, three times over, an aggregation (scale the rows, take each edge's source row,
  add it into the destination row) followed by a dense step. The factor and aggregation groups are, operation for
  operation, the terms the network names, so they are identified as written; each dense group is the specification's
  layer by the coordinate-wise reading of the dense step, the factor column and the bias row being reshapes of the
  vectors the program broadcasts. Nothing is computed and no operation on index lists is ever opened.
-/
import proofs.«150306_j20220706030037_1_alg».proof.Proof.Gen.ReferenceIdeal.Read
import proofs.«150306_j20220706030037_1_alg».proof.Proof.RefLayer
import proofs.«150306_j20220706030037_1_alg».proof.Proof.Net

noncomputable section

namespace Cert.ReferenceIdeal.RefNet

open Idealize.ShloMosaic Idealize.ShloMosaic.ValueIdx Cert.ReferenceIdeal.Read Cert.GraphConv

/-! ### The per-node factors -/

/-- The factor the reference computes from the source list is the named one. -/
theorem v9_eq (x1 : Edges) : val_main_v9 (F := Ideal) x1 = nodeFactor x1 := by
  unfold val_main_v9 val_main_v8 val_main_v7 val_main_cst_2 val_main_v3 val_main_v2 val_main_v1 val_main_cst_0
    val_main_v0 val_main_cst nodeFactor
  rfl

/-- The factor the reference computes from the destination list is the named one. -/
theorem v12_eq (x2 : Edges) : val_main_v12 (F := Ideal) x2 = nodeFactor x2 := by
  unfold val_main_v12 val_main_v11 val_main_v10 val_main_cst_3 val_main_v6 val_main_v5 val_main_v4 val_main_cst_1
    val_main_v0 val_main_cst nodeFactor
  rfl

/-! ### Columns and rows at an index -/

theorem col_at (x : FVec Ideal Cert.KernelIdeal.S100000 .f32) (r : Fin 100000) : col x (ix2 r 0) = x (ix1 r) := by
  unfold col
  exact RefLayer.shapeCast_col_apply x _ r

theorem row64_at (y : FVec Ideal Cert.KernelIdeal.S64 .f32) (j : Fin 64) : row64 y (ix2 0 j) = y (ix1 j) := by
  unfold row64
  exact RefLayer.shapeCast_row64_apply y _ j

/-- The row of the first 40 biases at class j is stored bias j. -/
theorem row40_head40_at (y : FVec Ideal Cert.KernelIdeal.S64 .f32) (j : Fin 40) :
    row40 (head40 y) (ix2 0 j) = y (ix1 ⟨j.val, by omega⟩) := by
  unfold row40
  rw [RefLayer.shapeCast_row40_apply (head40 y) _ j]
  unfold head40
  exact extractStridedSlice_apply ![0] y _ (ix1 j) (ix1 ⟨j.val, by omega⟩) (fun a => match a with
    | ⟨0, _⟩ => by show j.val = 0 + j.val; omega)

/-! ### The first layer -/

theorem v25_eq (x0 : FVec Ideal Cert.KernelIdeal.S100000x64 .f32) (x1 x2 : Edges) :
    val_main_v25 (F := Ideal) x0 x1 x2 = aggregate x0 (nodeFactor x1) x1 x2 := by
  unfold val_main_v25 val_main_v24 val_main_v23 val_main_cst_5 val_main_v22 val_main_v21 val_main_v20 val_main_v19
    val_main_v18 val_main_c_4 val_main_v17 val_main_v16 val_main_c val_main_v15 val_main_v14 val_main_v13
  rw [v9_eq]
  unfold aggregate
  rfl

theorem v33_eq (x0 : FVec Ideal Cert.KernelIdeal.S100000x64 .f32) (x1 x2 : Edges)
    (x3 : FVec Ideal Cert.KernelIdeal.S64x64 .f32) (x4 : FVec Ideal Cert.KernelIdeal.S64 .f32) :
    val_main_v33 (F := Ideal) x0 x1 x2 x3 x4
      = hidden (val_main_v25 (F := Ideal) x0 x1 x2) (col (nodeFactor x2)) x3 (row64 x4) := by
  unfold val_main_v33 val_main_call0_v0 val_main_call0_cst val_main_v32 val_main_v31 val_main_v30 val_main_v29
    val_main_v28 val_main_v27 val_main_v26
  rw [v12_eq]
  generalize val_main_v25 (F := Ideal) x0 x1 x2 = a
  exact RefLayer.hidden_eq a (nodeFactor x2) x3 x4 (col (nodeFactor x2)) (row64 x4) (col_at _) (row64_at _)

/-! ### The second layer -/

theorem v46_eq (x0 : FVec Ideal Cert.KernelIdeal.S100000x64 .f32) (x1 x2 : Edges)
    (x3 : FVec Ideal Cert.KernelIdeal.S64x64 .f32) (x4 : FVec Ideal Cert.KernelIdeal.S64 .f32) :
    val_main_v46 (F := Ideal) x0 x1 x2 x3 x4
      = aggregate (val_main_v33 (F := Ideal) x0 x1 x2 x3 x4) (nodeFactor x1) x1 x2 := by
  unfold val_main_v46 val_main_v45 val_main_v44 val_main_cst_8 val_main_v43 val_main_v42 val_main_v41 val_main_v40
    val_main_v39 val_main_c_7 val_main_v38 val_main_v37 val_main_c_6 val_main_v36 val_main_v35 val_main_v34
  rw [v9_eq]
  generalize val_main_v33 (F := Ideal) x0 x1 x2 x3 x4 = h
  unfold aggregate
  rfl

theorem v54_eq (x0 : FVec Ideal Cert.KernelIdeal.S100000x64 .f32) (x1 x2 : Edges)
    (x3 : FVec Ideal Cert.KernelIdeal.S64x64 .f32) (x4 : FVec Ideal Cert.KernelIdeal.S64 .f32)
    (x5 : FVec Ideal Cert.KernelIdeal.S64x64 .f32) (x6 : FVec Ideal Cert.KernelIdeal.S64 .f32) :
    val_main_v54 (F := Ideal) x0 x1 x2 x3 x4 x5 x6
      = hidden (val_main_v46 (F := Ideal) x0 x1 x2 x3 x4) (col (nodeFactor x2)) x5 (row64 x6) := by
  unfold val_main_v54 val_main_call1_v0 val_main_call1_cst val_main_v53 val_main_v52 val_main_v51 val_main_v50
    val_main_v49 val_main_v48 val_main_v47
  rw [v12_eq]
  generalize val_main_v46 (F := Ideal) x0 x1 x2 x3 x4 = a
  exact RefLayer.hidden_eq a (nodeFactor x2) x5 x6 (col (nodeFactor x2)) (row64 x6) (col_at _) (row64_at _)

/-! ### The output layer -/

theorem v67_eq (x0 : FVec Ideal Cert.KernelIdeal.S100000x64 .f32) (x1 x2 : Edges)
    (x3 : FVec Ideal Cert.KernelIdeal.S64x64 .f32) (x4 : FVec Ideal Cert.KernelIdeal.S64 .f32)
    (x5 : FVec Ideal Cert.KernelIdeal.S64x64 .f32) (x6 : FVec Ideal Cert.KernelIdeal.S64 .f32) :
    val_main_v67 (F := Ideal) x0 x1 x2 x3 x4 x5 x6
      = aggregate (val_main_v54 (F := Ideal) x0 x1 x2 x3 x4 x5 x6) (nodeFactor x1) x1 x2 := by
  unfold val_main_v67 val_main_v66 val_main_v65 val_main_cst_11 val_main_v64 val_main_v63 val_main_v62 val_main_v61
    val_main_v60 val_main_c_10 val_main_v59 val_main_v58 val_main_c_9 val_main_v57 val_main_v56 val_main_v55
  rw [v9_eq]
  generalize val_main_v54 (F := Ideal) x0 x1 x2 x3 x4 x5 x6 = h
  unfold aggregate
  rfl

theorem v75_eq (x0 : FVec Ideal Cert.KernelIdeal.S100000x64 .f32) (x1 x2 : Edges)
    (x3 : FVec Ideal Cert.KernelIdeal.S64x64 .f32) (x4 : FVec Ideal Cert.KernelIdeal.S64 .f32)
    (x5 : FVec Ideal Cert.KernelIdeal.S64x64 .f32) (x6 : FVec Ideal Cert.KernelIdeal.S64 .f32)
    (x7 : FVec Ideal Cert.KernelIdeal.S64x40 .f32) (x8 : FVec Ideal Cert.KernelIdeal.S64 .f32) :
    val_main_v75 (F := Ideal) x0 x1 x2 x3 x4 x5 x6 x7 x8
      = scores (val_main_v67 (F := Ideal) x0 x1 x2 x3 x4 x5 x6) (col (nodeFactor x2)) x7 (row40 (head40 x8)) := by
  unfold val_main_v75 val_main_v74 val_main_v73 val_main_v72 val_main_v71 val_main_v70 val_main_v69 val_main_v68
  rw [v12_eq]
  generalize val_main_v67 (F := Ideal) x0 x1 x2 x3 x4 x5 x6 = a
  exact RefLayer.scores_eq a (nodeFactor x2) x7 x8 (col (nodeFactor x2)) (row40 (head40 x8)) (col_at _) (row40_head40_at _)

/-! ### The whole program -/

/-- What the reference ends with is the network: each of its three rounds is an aggregation followed by the
    specification's dense step, on the arrays the network names. -/
theorem ref_is_network (x0 : FVec Ideal Cert.KernelIdeal.S100000x64 .f32) (x1 x2 : Edges)
    (x3 : FVec Ideal Cert.KernelIdeal.S64x64 .f32) (x4 : FVec Ideal Cert.KernelIdeal.S64 .f32)
    (x5 : FVec Ideal Cert.KernelIdeal.S64x64 .f32) (x6 : FVec Ideal Cert.KernelIdeal.S64 .f32)
    (x7 : FVec Ideal Cert.KernelIdeal.S64x40 .f32) (x8 : FVec Ideal Cert.KernelIdeal.S64 .f32) :
    val_main_v75 (F := Ideal) x0 x1 x2 x3 x4 x5 x6 x7 x8 = network x0 x1 x2 x3 x4 x5 x6 x7 x8 := by
  rw [v75_eq, v67_eq, v54_eq, v46_eq, v33_eq, v25_eq]
  rfl

end Cert.ReferenceIdeal.RefNet

end
-- ==== Proof.lean ====
/-
  A three-layer graph convolution: a tiled kernel per layer against the whole-array reference.

  Each layer first aggregates: row `r` of the node features is scaled by the source factor
  `(max (out-degree r) 1)^(-1/2)`, and every edge adds its source node's row into its destination node's row. Both
  programs do this with the same whole-array operations, so it is carried as one named function (`aggregate`) and
  never opened. The layer then takes the dense step
      (r, j) ↦ Σ_k (a r k · d r) · w k j + b j        (`d` the destination factor; floored at zero in the two hidden layers).
  The reference computes it on whole arrays: a product with the broadcast column, a contraction over `k`, a
  broadcast bias row, a maximum with zero. The kernel computes it tile by tile, 10000 rows at a time: each tile
  loads its rows of `a` and of `d`, the whole of `w` and `b`, rounds the two factors of the product to a shorter
  float format — the identity on the extended reals —, multiplies them into a zero accumulator, adds the bias row,
  and stores its 10000 rows of the result; the ten tiles cover the array. Read at an index both are the same sum in
  the same order, so no law of the extended reals is used and the inputs' finiteness is never opened.

  The modules: Spec (the dense step), Net (the shared whole-array functions and the network), Region0–2 (each
  region's array after its run is the dense step of the arrays it was entered with), Boundaries (what each stretch
  of whole-array operations hands to the next region), Run and Value (the kernel program's run ends with the
  network of its arguments), RefLayer and RefNet (so does the reference's). Below: the three frames, the trivial
  idealization claim (no operation was rewritten), and the equality of the two results.
-/
import proofs.«150306_j20220706030037_1_alg».proof.Defs
import proofs.«150306_j20220706030037_1_alg».proof.Proof.Gen.Kernel
import proofs.«150306_j20220706030037_1_alg».proof.Proof.Gen.Kernel.Frame
import proofs.«150306_j20220706030037_1_alg».proof.Proof.Gen.KernelIdeal
import proofs.«150306_j20220706030037_1_alg».proof.Proof.Gen.KernelIdeal.Frame
import proofs.«150306_j20220706030037_1_alg».proof.Proof.Gen.ReferenceIdeal
import proofs.«150306_j20220706030037_1_alg».proof.Proof.Gen.ReferenceIdeal.Run
import proofs.«150306_j20220706030037_1_alg».proof.Proof.Gen.ReferenceIdeal.Read
import proofs.«150306_j20220706030037_1_alg».proof.Proof.Gen.Pre_finite_inputs
import proofs.«150306_j20220706030037_1_alg».proof.Proof.Value
import proofs.«150306_j20220706030037_1_alg».proof.Proof.RefNet
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel program was rewritten for the reading over the extended reals. -/
theorem preserves : Cert.preserves_Kernel_KernelIdeal := trivial

/-- From memories agreeing on the arguments both programs end with the network of the argument arrays. -/
theorem algebraic : Cert.algebraic_KernelIdeal_ReferenceIdeal := by
  intro m ρ m' ρ' _ hagree
  refine ⟨fun c => Cert.GraphConv.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.NetValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v75_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2]
  exact Cert.ReferenceIdeal.RefNet.ref_is_network _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
